-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x2 .f32) (main_arg12 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2 .f32 := Host.absf main_arg11
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x500000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x500000 : Shape := ⟨2, ![2, 500000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x256 : Shape := ⟨2, ![50000, 256]⟩
abbrev S2000x128 : Shape := ⟨2, ![2000, 128]⟩
abbrev S2000x256 : Shape := ⟨2, ![2000, 256]⟩
abbrev S500000x256 : Shape := ⟨2, ![500000, 256]⟩
abbrev S50000x1 : Shape := ⟨2, ![50000, 1]⟩
abbrev S1x256 : Shape := ⟨2, ![1, 256]⟩
abbrev S2000x1 : Shape := ⟨2, ![2000, 1]⟩
abbrev S50x256 : Shape := ⟨2, ![50, 256]⟩
abbrev S2000x50 : Shape := ⟨2, ![2000, 50]⟩
abbrev S50 : Shape := ⟨1, ![50]⟩
abbrev S50x1 : Shape := ⟨2, ![50, 1]⟩
abbrev S1x2 : Shape := ⟨2, ![1, 2]⟩
abbrev S50x2 : Shape := ⟨2, ![50, 2]⟩

abbrev nBuf : Space → Nat
  | .hbm => 171
  | .vmem => 35
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x2, .f32⟩
  | 12 => ⟨S2, .f32⟩
  | 13 => ⟨S1x500000, .i32⟩
  | 14 => ⟨S500000, .i32⟩
  | 15 => ⟨S1x500000, .i32⟩
  | 16 => ⟨S500000, .i32⟩
  | 17 => ⟨S_, .f32⟩
  | 18 => ⟨S500000, .f32⟩
  | 19 => ⟨S_, .f32⟩
  | 20 => ⟨S50000, .f32⟩
  | 21 => ⟨S500000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S500000, .f32⟩
  | 35 => ⟨S_, .f32⟩
  | 36 => ⟨S50000, .f32⟩
  | 37 => ⟨S500000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S50000x256, .bf16⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x256, .bf16⟩
  | 59 => ⟨S500000x256, .f32⟩
  | 60 => ⟨S_, .f32⟩
  | 61 => ⟨S50000x256, .f32⟩
  | 62 => ⟨S500000x1, .i32⟩
  | 63 => ⟨S50000x256, .f32⟩
  | 64 => ⟨S50000x1, .f32⟩
  | 65 => ⟨S50000x256, .f32⟩
  | 66 => ⟨S50000x256, .f32⟩
  | 67 => ⟨S50000x256, .bf16⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x256, .bf16⟩
  | 77 => ⟨S500000x256, .f32⟩
  | 78 => ⟨S_, .f32⟩
  | 79 => ⟨S50000x256, .f32⟩
  | 80 => ⟨S500000x1, .i32⟩
  | 81 => ⟨S50000x256, .f32⟩
  | 82 => ⟨S50000x1, .f32⟩
  | 83 => ⟨S1x256, .f32⟩
  | 84 => ⟨S50000x256, .bf16⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x256, .bf16⟩
  | 94 => ⟨S500000x256, .f32⟩
  | 95 => ⟨S_, .f32⟩
  | 96 => ⟨S50000x256, .f32⟩
  | 97 => ⟨S500000x1, .i32⟩
  | 98 => ⟨S50000x256, .f32⟩
  | 99 => ⟨S50000x1, .f32⟩
  | 100 => ⟨S50000x256, .f32⟩
  | 101 => ⟨S50000x256, .f32⟩
  | 102 => ⟨S50000x256, .bf16⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x256, .bf16⟩
  | 112 => ⟨S500000x256, .f32⟩
  | 113 => ⟨S_, .f32⟩
  | 114 => ⟨S50000x256, .f32⟩
  | 115 => ⟨S500000x1, .i32⟩
  | 116 => ⟨S50000x256, .f32⟩
  | 117 => ⟨S50000x1, .f32⟩
  | 118 => ⟨S1x256, .f32⟩
  | 119 => ⟨S50000x256, .bf16⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S50000x128, .f32⟩

abbrev hbmTy0_1 (i : Nat) : BufTy := match i % 128 with
  | 0 => ⟨S500000x256, .bf16⟩
  | 1 => ⟨S500000x256, .f32⟩
  | 2 => ⟨S_, .f32⟩
  | 3 => ⟨S50000x256, .f32⟩
  | 4 => ⟨S500000x1, .i32⟩
  | 5 => ⟨S50000x256, .f32⟩
  | 6 => ⟨S50000x1, .f32⟩
  | 7 => ⟨S50000x256, .f32⟩
  | 8 => ⟨S50000x256, .f32⟩
  | 9 => ⟨S50000x256, .bf16⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x256, .bf16⟩
  | 19 => ⟨S500000x256, .f32⟩
  | 20 => ⟨S_, .f32⟩
  | 21 => ⟨S50000x256, .f32⟩
  | 22 => ⟨S500000x1, .i32⟩
  | 23 => ⟨S50000x256, .f32⟩
  | 24 => ⟨S50000x1, .f32⟩
  | 25 => ⟨S1x256, .f32⟩
  | 26 => ⟨S50000x1, .i32⟩
  | 27 => ⟨S50x256, .f32⟩
  | 28 => ⟨S_, .f32⟩
  | 29 => ⟨S50000, .f32⟩
  | 30 => ⟨S_, .f32⟩
  | 31 => ⟨S50, .f32⟩
  | 32 => ⟨S50000x1, .i32⟩
  | 33 => ⟨S50, .f32⟩
  | 34 => ⟨S_, .f32⟩
  | 35 => ⟨S50, .f32⟩
  | 36 => ⟨S50, .f32⟩
  | 37 => ⟨S50x1, .f32⟩
  | 38 => ⟨S50x256, .f32⟩
  | 39 => ⟨S50x256, .f32⟩
  | 40 => ⟨S1x256, .f32⟩
  | 41 => ⟨S1x2, .f32⟩
  | 42 => ⟨S50x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S2000x1, .f32⟩
  | .local _ .vmem, ⟨8, _⟩ => ⟨S2000x1, .f32⟩
  | .local _ .vmem, ⟨9, _⟩ => ⟨S1x256, .f32⟩
  | .local _ .vmem, ⟨10, _⟩ => ⟨S256x256, .f32⟩
  | .local _ .vmem, ⟨11, _⟩ => ⟨S2000x256, .bf16⟩
  | .local _ .vmem, ⟨12, _⟩ => ⟨S2000x256, .bf16⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S1x256, .f32⟩
  | .local _ .vmem, ⟨18, _⟩ => ⟨S256x256, .f32⟩
  | .local _ .vmem, ⟨19, _⟩ => ⟨S2000x256, .bf16⟩
  | .local _ .vmem, ⟨20, _⟩ => ⟨S2000x256, .bf16⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x1, .i32⟩
  | .local _ .vmem, ⟨27, _⟩ => ⟨S2000x1, .i32⟩
  | .local _ .vmem, ⟨28, _⟩ => ⟨S50x256, .f32⟩
  | .local _ .vmem, ⟨29, _⟩ => ⟨S50x256, .f32⟩
  | .local _ .vmem, ⟨30, _⟩ => ⟨S256x256, .f32⟩
  | .local _ .vmem, ⟨31, _⟩ => ⟨S1x256, .f32⟩
  | .local _ .vmem, ⟨32, _⟩ => ⟨S256x2, .f32⟩
  | .local _ .vmem, ⟨33, _⟩ => ⟨S1x2, .f32⟩
  | .local _ .vmem, ⟨34, _⟩ => ⟨S50x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_9 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_10 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_11 : Ref sig .tc := ⟨.hbm, 68, rfl⟩
abbrev main_v38 : Ref sig .tc := ⟨.hbm, 69, rfl⟩
abbrev main_v39 : Ref sig .tc := ⟨.hbm, 70, rfl⟩
abbrev main_c_12 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_13 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_c_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_16 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_17 : Ref sig .tc := ⟨.hbm, 103, rfl⟩
abbrev main_v67 : Ref sig .tc := ⟨.hbm, 104, rfl⟩
abbrev main_v68 : Ref sig .tc := ⟨.hbm, 105, rfl⟩
abbrev main_c_18 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_19 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_20 : Ref sig .tc := ⟨.hbm, 120, rfl⟩
abbrev main_v81 : Ref sig .tc := ⟨.hbm, 121, rfl⟩
abbrev main_v82 : Ref sig .tc := ⟨.hbm, 122, rfl⟩
abbrev main_c_21 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_22 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_23 : Ref sig .tc := ⟨.hbm, 138, rfl⟩
abbrev main_v96 : Ref sig .tc := ⟨.hbm, 139, rfl⟩
abbrev main_v97 : Ref sig .tc := ⟨.hbm, 140, rfl⟩
abbrev main_c_24 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_25 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_26 : Ref sig .tc := ⟨.hbm, 156, rfl⟩
abbrev main_v111 : Ref sig .tc := ⟨.hbm, 157, rfl⟩
abbrev main_cst_27 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_28 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc4_sem0_0 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S50x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S50x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S50x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S50000_S50000x1 : S50000.ShapeCasts S50000x1
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  iota_S2000x50_d1_w32 : S2000x50.Iotas .tc 32 [1]
  broadcasts_S2000x1_S2000x50 : S2000x1.Broadcasts S2000x50
  natLt_1_32 : 1 < 32
  inb_S50x256_S50x256_0_0 : ∀ a, (![0, 0] : Fin 2 → Nat) a + S50x256.size a ≤ S50x256.size a
  h_S50x256 : 0 < S50x256.numel
  shapeCasts_S50x256_S50x256 : S50x256.ShapeCasts S50x256
  bcast_S_S50 : S_.BroadcastsInDim S50 (![] : Fin 0 → Fin S50.rank)
  bcast_S50_S50x1_0 : S50.BroadcastsInDim S50x1 (![0] : Fin 1 → Fin S50x1.rank)
  bcast_S50x1_S50x256_0_1 : S50x1.BroadcastsInDim S50x256 (![0, 1] : Fin 2 → Fin S50x256.rank)
  shapeCasts_S2_S1x2 : S2.ShapeCasts S1x2
  broadcasts_S1x256_S50x256 : S1x256.Broadcasts S50x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S50x2 : S1x2.Broadcasts S50x2
  inb_S50x2_S50x2_0_0 : ∀ a, (![0, 0] : Fin 2 → Nat) a + S50x2.size a ≤ S50x2.size a
  h_S50x2 : 0 < S50x2.numel
  scatter_S50000_S500000x1_S500000_n_0_0_1_wf : ScatterDims.WF S50000 S500000x1 S500000 [] [0] [0] 1
  dot_S2000x128_S128x256_S2000x256_1_0_0_1_n_n_wf : DotDims.WF S2000x128 S128x256 S2000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S2000x256_S256x256_S2000x256_1_0_0_1_n_n_wf : DotDims.WF S2000x256 S256x256 S2000x256 [1] [0] [0] [1] [] []
  dot_S2000x50_S2000x256_S50x256_0_0_1_1_n_n_wf : DotDims.WF S2000x50 S2000x256 S50x256 [0] [0] [1] [1] [] []
  scatter_S50_S50000x1_S50000_n_0_0_1_wf : ScatterDims.WF S50 S50000x1 S50000 [] [0] [0] 1
  dot_S50x256_S256x256_S50x256_1_0_0_1_n_n_wf : DotDims.WF S50x256 S256x256 S50x256 [1] [0] [0] [1] [] []
  dot_S50x256_S256x2_S50x2_1_0_0_1_n_n_wf : DotDims.WF S50x256 S256x2 S50x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .bf16 = 32 ∨ (Rect.block (s := S50000x256) S2000x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .i32 = 32 ∨ (Rect.block (s := S50000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S50x256.size a ≤ S50x256.size a
  hwx3_4 : ∀ i : grid3.Coords, EltTy.bits .f32 = 32 ∨ (Rect.block (s := S50x256) S50x256.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S50x256.size a ≤ S50x256.size a
  hwx4_0 : ∀ i : grid4.Coords, EltTy.bits .f32 = 32 ∨ (Rect.block (s := S50x256) S50x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x2.size a ≤ S256x2.size a
  hwx4_3 : ∀ i : grid4.Coords, EltTy.bits .f32 = 32 ∨ (Rect.block (s := S256x2) S256x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S50x2.size a ≤ S50x2.size a
  hwx4_5 : ∀ i : grid4.Coords, EltTy.bits .f32 = 32 ∨ (Rect.block (s := S50x2) S50x2.size (cc4_transform_5 i) (hinb4_5 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x50_S2000x256_S50x256_0_0_1_1_n_n : DotDims S2000x50 S2000x256 S50x256 where
  lhsContracting := [0]
  rhsContracting := [0]
  lhsNonContracting := [1]
  rhsNonContracting := [1]
  lhsBatch := []
  rhsBatch := []
  wf := dot_S2000x50_S2000x256_S50x256_0_0_1_1_n_n_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x256_S256x256_S50x256_1_0_0_1_n_n : DotDims S50x256 S256x256 S50x256 where
  lhsContracting := [1]
  rhsContracting := [0]
  lhsNonContracting := [0]
  rhsNonContracting := [1]
  lhsBatch := []
  rhsBatch := []
  wf := dot_S50x256_S256x256_S50x256_1_0_0_1_n_n_wf
def dot_S50x256_S256x2_S50x2_1_0_0_1_n_n : DotDims S50x256 S256x2 S50x2 where
  lhsContracting := [1]
  rhsContracting := [0]
  lhsNonContracting := [0]
  rhsNonContracting := [1]
  lhsBatch := []
  rhsBatch := []
  wf := dot_S50x256_S256x2_S50x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v77) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v106) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v107) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v108) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v109) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v110) S50x256.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v119) S50x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v120) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S256x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v121) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v122) S50x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x256 : Shape := ⟨2, ![50000, 256]⟩
abbrev S500000x256 : Shape := ⟨2, ![500000, 256]⟩
abbrev S50000x1 : Shape := ⟨2, ![50000, 1]⟩
abbrev S1x256 : Shape := ⟨2, ![1, 256]⟩
abbrev S50 : Shape := ⟨1, ![50]⟩
abbrev S50x256 : Shape := ⟨2, ![50, 256]⟩
abbrev S50x1 : Shape := ⟨2, ![50, 1]⟩
abbrev S50x2 : Shape := ⟨2, ![50, 2]⟩
abbrev S1x2 : Shape := ⟨2, ![1, 2]⟩

abbrev nBuf : Space → Nat
  | .hbm => 193
  | .vmem => 0
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x2, .f32⟩
  | 12 => ⟨S2, .f32⟩
  | 13 => ⟨S1x500000, .i32⟩
  | 14 => ⟨S500000, .i32⟩
  | 15 => ⟨S1x500000, .i32⟩
  | 16 => ⟨S500000, .i32⟩
  | 17 => ⟨S_, .f32⟩
  | 18 => ⟨S500000, .f32⟩
  | 19 => ⟨S_, .f32⟩
  | 20 => ⟨S50000, .f32⟩
  | 21 => ⟨S500000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S500000, .f32⟩
  | 35 => ⟨S_, .f32⟩
  | 36 => ⟨S50000, .f32⟩
  | 37 => ⟨S500000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S50000x256, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x256, .f32⟩
  | 59 => ⟨S_, .f32⟩
  | 60 => ⟨S50000x256, .f32⟩
  | 61 => ⟨S500000x1, .i32⟩
  | 62 => ⟨S50000x256, .f32⟩
  | 63 => ⟨S50000x1, .f32⟩
  | 64 => ⟨S50000x256, .f32⟩
  | 65 => ⟨S50000x256, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x256, .f32⟩
  | 75 => ⟨S_, .f32⟩
  | 76 => ⟨S50000x256, .f32⟩
  | 77 => ⟨S500000x1, .i32⟩
  | 78 => ⟨S50000x256, .f32⟩
  | 79 => ⟨S50000x1, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S50000x256, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x256, .f32⟩
  | 98 => ⟨S_, .f32⟩
  | 99 => ⟨S50000x256, .f32⟩
  | 100 => ⟨S500000x1, .i32⟩
  | 101 => ⟨S50000x256, .f32⟩
  | 102 => ⟨S50000x1, .f32⟩
  | 103 => ⟨S50000x256, .f32⟩
  | 104 => ⟨S50000x256, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000x256, .f32⟩
  | 114 => ⟨S_, .f32⟩
  | 115 => ⟨S50000x256, .f32⟩
  | 116 => ⟨S500000x1, .i32⟩
  | 117 => ⟨S50000x256, .f32⟩
  | 118 => ⟨S50000x1, .f32⟩
  | 119 => ⟨S50000x256, .f32⟩
  | 120 => ⟨S50000x256, .f32⟩
  | 121 => ⟨S1x256, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S50000x256, .f32⟩
  | _ => ⟨S50000x128, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x256, .f32⟩
  | 9 => ⟨S_, .f32⟩
  | 10 => ⟨S50000x256, .f32⟩
  | 11 => ⟨S500000x1, .i32⟩
  | 12 => ⟨S50000x256, .f32⟩
  | 13 => ⟨S50000x1, .f32⟩
  | 14 => ⟨S50000x256, .f32⟩
  | 15 => ⟨S50000x256, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x256, .f32⟩
  | 25 => ⟨S_, .f32⟩
  | 26 => ⟨S50000x256, .f32⟩
  | 27 => ⟨S500000x1, .i32⟩
  | 28 => ⟨S50000x256, .f32⟩
  | 29 => ⟨S50000x1, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S_, .f32⟩
  | 39 => ⟨S50000, .f32⟩
  | 40 => ⟨S_, .f32⟩
  | 41 => ⟨S50, .f32⟩
  | 42 => ⟨S50000x1, .i32⟩
  | 43 => ⟨S50, .f32⟩
  | 44 => ⟨S_, .f32⟩
  | 45 => ⟨S50x256, .f32⟩
  | 46 => ⟨S50000x1, .i32⟩
  | 47 => ⟨S50x256, .f32⟩
  | 48 => ⟨S_, .f32⟩
  | 49 => ⟨S50, .f32⟩
  | 50 => ⟨S50, .f32⟩
  | 51 => ⟨S50x1, .f32⟩
  | 52 => ⟨S50x256, .f32⟩
  | 53 => ⟨S50x256, .f32⟩
  | 54 => ⟨S50x256, .f32⟩
  | 55 => ⟨S1x256, .f32⟩
  | 56 => ⟨S50x256, .f32⟩
  | 57 => ⟨S50x256, .f32⟩
  | 58 => ⟨S_, .f32⟩
  | 59 => ⟨S50x256, .f32⟩
  | 60 => ⟨S50x256, .f32⟩
  | 61 => ⟨S50x2, .f32⟩
  | 62 => ⟨S1x2, .f32⟩
  | 63 => ⟨S50x2, .f32⟩
  | 64 => ⟨S50x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_9 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_10 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_11 : Ref sig .tc := ⟨.hbm, 66, rfl⟩
abbrev main_v36 : Ref sig .tc := ⟨.hbm, 67, rfl⟩
abbrev main_v37 : Ref sig .tc := ⟨.hbm, 68, rfl⟩
abbrev main_c_12 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call2_cst : Ref sig .tc := ⟨.hbm, 85, rfl⟩
abbrev main_call2_v0 : Ref sig .tc := ⟨.hbm, 86, rfl⟩
abbrev main_v52 : Ref sig .tc := ⟨.hbm, 87, rfl⟩
abbrev main_v53 : Ref sig .tc := ⟨.hbm, 88, rfl⟩
abbrev main_c_14 : Ref sig .tc := ⟨.hbm, 89, rfl⟩
abbrev main_v54 : Ref sig .tc := ⟨.hbm, 90, rfl⟩
abbrev main_v55 : Ref sig .tc := ⟨.hbm, 91, rfl⟩
abbrev main_c_15 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_16 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_c_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call3_cst : Ref sig .tc := ⟨.hbm, 124, rfl⟩
abbrev main_call3_v0 : Ref sig .tc := ⟨.hbm, 125, rfl⟩
abbrev main_v83 : Ref sig .tc := ⟨.hbm, 126, rfl⟩
abbrev main_v84 : Ref sig .tc := ⟨.hbm, 127, rfl⟩
abbrev main_c_20 : Ref sig .tc := ⟨.hbm, 128, rfl⟩
abbrev main_v85 : Ref sig .tc := ⟨.hbm, 129, rfl⟩
abbrev main_v86 : Ref sig .tc := ⟨.hbm, 130, rfl⟩
abbrev main_c_21 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_23 : Ref sig .tc := ⟨.hbm, 144, rfl⟩
abbrev main_v98 : Ref sig .tc := ⟨.hbm, 145, rfl⟩
abbrev main_v99 : Ref sig .tc := ⟨.hbm, 146, rfl⟩
abbrev main_c_24 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_25 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_call4_cst : Ref sig .tc := ⟨.hbm, 163, rfl⟩
abbrev main_call4_v0 : Ref sig .tc := ⟨.hbm, 164, rfl⟩
abbrev main_v114 : Ref sig .tc := ⟨.hbm, 165, rfl⟩
abbrev main_cst_26 : Ref sig .tc := ⟨.hbm, 166, rfl⟩
abbrev main_v115 : Ref sig .tc := ⟨.hbm, 167, rfl⟩
abbrev main_cst_27 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_28 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_call5_cst : Ref sig .tc := ⟨.hbm, 186, rfl⟩
abbrev main_call5_v0 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50 : S_.BroadcastsInDim S50 (![] : Fin 0 → Fin S50.rank)
  bcast_S_S50x256 : S_.BroadcastsInDim S50x256 (![] : Fin 0 → Fin S50x256.rank)
  bcast_S50_S50x1_0 : S50.BroadcastsInDim S50x1 (![0] : Fin 1 → Fin S50x1.rank)
  bcast_S50x1_S50x256_0_1 : S50x1.BroadcastsInDim S50x256 (![0, 1] : Fin 2 → Fin S50x256.rank)
  bcast_S1x256_S50x256_0_1 : S1x256.BroadcastsInDim S50x256 (![0, 1] : Fin 2 → Fin S50x256.rank)
  bcast_S2_S1x2_1 : S2.BroadcastsInDim S1x2 (![1] : Fin 1 → Fin S1x2.rank)
  bcast_S1x2_S50x2_0_1 : S1x2.BroadcastsInDim S50x2 (![0, 1] : Fin 2 → Fin S50x2.rank)
  scatter_S50000_S500000x1_S500000_n_0_0_1_wf : ScatterDims.WF S50000 S500000x1 S500000 [] [0] [0] 1
  dot_S50000x128_S128x256_S50000x256_1_0_0_1_n_n_wf : DotDims.WF S50000x128 S128x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x256_S50000x256_1_0_0_1_n_n_wf : DotDims.WF S50000x256 S256x256 S50000x256 [1] [0] [0] [1] [] []
  scatter_S50_S50000x1_S50000_n_0_0_1_wf : ScatterDims.WF S50 S50000x1 S50000 [] [0] [0] 1
  scatter_S50x256_S50000x1_S50000x256_1_0_0_1_wf : ScatterDims.WF S50x256 S50000x1 S50000x256 [1] [0] [0] 1
  dot_S50x256_S256x256_S50x256_1_0_0_1_n_n_wf : DotDims.WF S50x256 S256x256 S50x256 [1] [0] [0] [1] [] []
  dot_S50x256_S256x2_S50x2_1_0_0_1_n_n_wf : DotDims.WF S50x256 S256x2 S50x2 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def scatter_S50x256_S50000x1_S50000x256_1_0_0_1 : ScatterDims S50x256 S50000x1 S50000x256 where
  updateWindowDims := [1]
  insertedWindowDims := [0]
  scatterDimsToOperandDims := [0]
  indexVectorDim := 1
  wf := scatter_S50x256_S50000x1_S50000x256_1_0_0_1_wf
def dot_S50x256_S256x256_S50x256_1_0_0_1_n_n : DotDims S50x256 S256x256 S50x256 where
  lhsContracting := [1]
  rhsContracting := [0]
  lhsNonContracting := [0]
  rhsNonContracting := [1]
  lhsBatch := []
  rhsBatch := []
  wf := dot_S50x256_S256x256_S50x256_1_0_0_1_n_n_wf
def dot_S50x256_S256x2_S50x2_1_0_0_1_n_n : DotDims S50x256 S256x2 S50x2 where
  lhsContracting := [1]
  rhsContracting := [0]
  lhsNonContracting := [0]
  rhsNonContracting := [1]
  lhsBatch := []
  rhsBatch := []
  wf := dot_S50x256_S256x2_S50x2_1_0_0_1_n_n_wf

class Facts : Prop extends Facts₀ where

variable [Facts]
-- ==== Proof.KernelRun.lean ====
/-
  The idealized kernel's run with its result named. Every weakly fair execution of the program ends with each of the
  thirteen argument arrays as launched and with the result array at the contents the last boundary of the program's
  fold assigns to it: the program is four stretches of host operations, then five kernel launches separated by
  stretches of host operations, and the contents at each boundary are the previous boundary's with the stretch's
  operations applied, or with the launch's output array replaced by what its grid points wrote back.
-/
import proofs.«105314_j12644383719477_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. The launch over
    the program's thirteen segments is the one that proves the arguments unchanged; the last thread state holds every
    unscoped buffer at the last boundary's contents, and the result buffer is one of them. -/
theorem run_result : θ_run defs (onTc (τ := τ) (main (F := F))) ⟨m, fun _ => 0, ρ⟩ (fun r => ∀ c : Dev nD,
      r.2.mem ((c.tc : Thread nD τ).loc main_v122) = W13 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v122 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.Result

end
-- ==== Proof.Args.lean ====
/-
  The thirteen argument arrays of the idealized kernel's program at launch, each with its shape and element type in
  plain sight: the node features, the incidence list (two rows of node and hyperedge numbers), the graph number of
  each node, and the weights and biases of the three convolution layers and of the two-layer head.
-/
import proofs.«105314_j12644383719477_2_alg».proof.KernelIdeal
import Idealize.ShloMosaic.PureOps.Ideal

noncomputable section

namespace Cert.Bridge

open Cert.KernelIdeal Idealize.ShloMosaic Idealize.ShloMosaic.TcCoe Idealize.SL.Sem

variable (m : (ℓ : Loc nD τ sig) → Buf (Elt Ideal) ℓ) (c : Dev nD)

/-- The node features `[50000, 128]`. -/
abbrev a0 : (⟨S50000x128, .f32⟩ : BufTy).Contents (Elt Ideal) := m ((c : Thread nD τ).loc main_arg0)
/-- The incidence list `[2, 500000]`: row 0 the node numbers, row 1 the hyperedge numbers. -/
abbrev a1 : (⟨S2x500000, .i32⟩ : BufTy).Contents (Elt Ideal) := m ((c : Thread nD τ).loc main_arg1)
/-- The graph number of each node `[50000]`. -/
abbrev a2 : (⟨S50000, .i32⟩ : BufTy).Contents (Elt Ideal) := m ((c : Thread nD τ).loc main_arg2)
/-- The first layer's weights `[128, 256]` and bias `[256]`. -/
abbrev a3 : (⟨S128x256, .f32⟩ : BufTy).Contents (Elt Ideal) := m ((c : Thread nD τ).loc main_arg3)
abbrev a4 : (⟨S256, .f32⟩ : BufTy).Contents (Elt Ideal) := m ((c : Thread nD τ).loc main_arg4)
/-- The second layer's weights `[256, 256]` and bias `[256]`. -/
abbrev a5 : (⟨S256x256, .f32⟩ : BufTy).Contents (Elt Ideal) := m ((c : Thread nD τ).loc main_arg5)
abbrev a6 : (⟨S256, .f32⟩ : BufTy).Contents (Elt Ideal) := m ((c : Thread nD τ).loc main_arg6)
/-- The third layer's weights `[256, 256]` and bias `[256]`. -/
abbrev a7 : (⟨S256x256, .f32⟩ : BufTy).Contents (Elt Ideal) := m ((c : Thread nD τ).loc main_arg7)
abbrev a8 : (⟨S256, .f32⟩ : BufTy).Contents (Elt Ideal) := m ((c : Thread nD τ).loc main_arg8)
/-- The head's first weights `[256, 256]` and bias `[256]`, and its second weights `[256, 2]` and bias `[2]`. -/
abbrev a9 : (⟨S256x256, .f32⟩ : BufTy).Contents (Elt Ideal) := m ((c : Thread nD τ).loc main_arg9)
abbrev a10 : (⟨S256, .f32⟩ : BufTy).Contents (Elt Ideal) := m ((c : Thread nD τ).loc main_arg10)
abbrev a11 : (⟨S256x2, .f32⟩ : BufTy).Contents (Elt Ideal) := m ((c : Thread nD τ).loc main_arg11)
abbrev a12 : (⟨S2, .f32⟩ : BufTy).Contents (Elt Ideal) := m ((c : Thread nD τ).loc main_arg12)

end Cert.Bridge

end
-- ==== Proof.Carry.lean ====
/-
  Buffers that keep their contents along the idealized kernel's program. The program's buffers are in single
  assignment: a stretch of host operations changes only the buffers its own operations write, and a kernel launch
  changes only its output array. So an argument array, the two index vectors (the rows and the columns of the
  incidence list) and the two inverse-degree vectors, once written, read the same at every later boundary, up to
  the place of their last use.
-/
import proofs.«105314_j12644383719477_2_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A stretch of host operations leaves a buffer that none of its operations writes as it found it: closes a goal
    that equates the stretch's fold at such a buffer with the contents before the stretch. -/
syntax "host_keeps" : tactic
macro_rules
  | `(tactic| host_keeps) => `(tactic| (
      refine StableHlo.after_of_forall_not_mem _ _ (List.forall_iff_forall_mem.mp ?_)
      simp only [hostOps0, hostOps0_1, hostOps0_2, hostOps0_3, hostOps1, hostOps2, hostOps3, hostOps4,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-- The thirteen argument arrays. -/
abbrev argRefs : List (Ref sig .tc) :=
  [main_arg0, main_arg1, main_arg2, main_arg3, main_arg4, main_arg5, main_arg6, main_arg7, main_arg8, main_arg9,
   main_arg10, main_arg11, main_arg12]

/-- The rows and the columns of the incidence list, and the inverse degrees of the nodes and of the hyperedges. -/
abbrev idxRefs : List (Ref sig .tc) := [main_v1, main_v3, main_v12, main_v21]

/-! ## The four stretches before the first launch write no argument -/

theorem args1 : ∀ b ∈ argRefs, W1 m ρ c (Proc.devRef .tc b) = W0 m ρ c (Proc.devRef .tc b) := by
  intro b hb; fin_cases hb <;> host_keeps
theorem args2 : ∀ b ∈ argRefs, W2 m ρ c (Proc.devRef .tc b) = W1 m ρ c (Proc.devRef .tc b) := by
  intro b hb; fin_cases hb <;> host_keeps
theorem args3 : ∀ b ∈ argRefs, W3 m ρ c (Proc.devRef .tc b) = W2 m ρ c (Proc.devRef .tc b) := by
  intro b hb; fin_cases hb <;> host_keeps
theorem args4 : ∀ b ∈ argRefs, W4 m ρ c (Proc.devRef .tc b) = W3 m ρ c (Proc.devRef .tc b) := by
  intro b hb; fin_cases hb <;> host_keeps

/-- At the first launch's entry every argument holds its launch contents. -/
theorem args_at4 (b : Ref sig .tc) (hb : b ∈ argRefs) : W4 m ρ c (Proc.devRef .tc b) = W0 m ρ c (Proc.devRef .tc b) :=
  (args4 m ρ c b hb).trans ((args3 m ρ c b hb).trans ((args2 m ρ c b hb).trans (args1 m ρ c b hb)))

/-! ## Across the launches and the later stretches

A launch changes only its output array; the stretch after launch `k` writes only its own intermediate buffers. -/

/-- The buffers read after the first launch: every argument but the first launch's own two, and the index and
    inverse-degree vectors. -/
abbrev after0 : List (Ref sig .tc) :=
  [main_arg2, main_arg4, main_arg5, main_arg6, main_arg7, main_arg8, main_arg9, main_arg10, main_arg11, main_arg12,
   main_v1, main_v3, main_v12, main_v21]
/-- Those read after the second launch (the second launch's own weight array has had its last use). -/
abbrev after1 : List (Ref sig .tc) :=
  [main_arg2, main_arg6, main_arg7, main_arg8, main_arg9, main_arg10, main_arg11, main_arg12,
   main_v1, main_v3, main_v12, main_v21]
/-- Those read after the third launch. -/
abbrev after2 : List (Ref sig .tc) :=
  [main_arg2, main_arg8, main_arg9, main_arg10, main_arg11, main_arg12, main_v1, main_v3, main_v12, main_v21]

theorem after1_sub : ∀ b ∈ after1, b ∈ after0 := by decide
theorem after2_sub : ∀ b ∈ after2, b ∈ after1 := by decide

theorem keep5 : ∀ b ∈ after0, W5 m ρ c (Proc.devRef .tc b) = W4 m ρ c (Proc.devRef .tc b) := by
  intro b hb; fin_cases hb <;> exact W5_of_ne m ρ c _ (by decide)
theorem keep6 : ∀ b ∈ after0, W6 m ρ c (Proc.devRef .tc b) = W5 m ρ c (Proc.devRef .tc b) := by
  intro b hb; fin_cases hb <;> host_keeps
theorem keep7 : ∀ b ∈ after1, W7 m ρ c (Proc.devRef .tc b) = W6 m ρ c (Proc.devRef .tc b) := by
  intro b hb; fin_cases hb <;> exact W7_of_ne m ρ c _ (by decide)
theorem keep8 : ∀ b ∈ after1, W8 m ρ c (Proc.devRef .tc b) = W7 m ρ c (Proc.devRef .tc b) := by
  intro b hb; fin_cases hb <;> host_keeps
theorem keep9 : ∀ b ∈ after2, W9 m ρ c (Proc.devRef .tc b) = W8 m ρ c (Proc.devRef .tc b) := by
  intro b hb; fin_cases hb <;> exact W9_of_ne m ρ c _ (by decide)
theorem keep10 : ∀ b ∈ after2, W10 m ρ c (Proc.devRef .tc b) = W9 m ρ c (Proc.devRef .tc b) := by
  intro b hb; fin_cases hb <;> host_keeps
theorem keep11 : ∀ b ∈ after2, W11 m ρ c (Proc.devRef .tc b) = W10 m ρ c (Proc.devRef .tc b) := by
  intro b hb; fin_cases hb <;> exact W11_of_ne m ρ c _ (by decide)
theorem keep12 : ∀ b ∈ after2, W12 m ρ c (Proc.devRef .tc b) = W11 m ρ c (Proc.devRef .tc b) := by
  intro b hb; fin_cases hb <;> host_keeps

/-- Each later boundary against the first launch's entry. -/
theorem at5 (b : Ref sig .tc) (hb : b ∈ after0) : W5 m ρ c (Proc.devRef .tc b) = W4 m ρ c (Proc.devRef .tc b) := keep5 m ρ c b hb
theorem at6 (b : Ref sig .tc) (hb : b ∈ after0) : W6 m ρ c (Proc.devRef .tc b) = W4 m ρ c (Proc.devRef .tc b) :=
  (keep6 m ρ c b hb).trans (at5 m ρ c b hb)
theorem at7 (b : Ref sig .tc) (hb : b ∈ after1) : W7 m ρ c (Proc.devRef .tc b) = W4 m ρ c (Proc.devRef .tc b) :=
  (keep7 m ρ c b hb).trans (at6 m ρ c b (after1_sub b hb))
theorem at8 (b : Ref sig .tc) (hb : b ∈ after1) : W8 m ρ c (Proc.devRef .tc b) = W4 m ρ c (Proc.devRef .tc b) :=
  (keep8 m ρ c b hb).trans (at7 m ρ c b hb)
theorem at9 (b : Ref sig .tc) (hb : b ∈ after2) : W9 m ρ c (Proc.devRef .tc b) = W4 m ρ c (Proc.devRef .tc b) :=
  (keep9 m ρ c b hb).trans (at8 m ρ c b (after2_sub b hb))
theorem at10 (b : Ref sig .tc) (hb : b ∈ after2) : W10 m ρ c (Proc.devRef .tc b) = W4 m ρ c (Proc.devRef .tc b) :=
  (keep10 m ρ c b hb).trans (at9 m ρ c b hb)
theorem at11 (b : Ref sig .tc) (hb : b ∈ after2) : W11 m ρ c (Proc.devRef .tc b) = W4 m ρ c (Proc.devRef .tc b) :=
  (keep11 m ρ c b hb).trans (at10 m ρ c b hb)
theorem at12 (b : Ref sig .tc) (hb : b ∈ after2) : W12 m ρ c (Proc.devRef .tc b) = W4 m ρ c (Proc.devRef .tc b) :=
  (keep12 m ρ c b hb).trans (at11 m ρ c b hb)

end Cert.KernelIdeal.Carry

end
-- ==== Proof.Degrees.lean ====
/-
  The index vectors and the inverse degrees. Before its first launch the kernel's program cuts the incidence list
  into its row of node numbers and its row of hyperedge numbers, counts how often each node and each hyperedge
  occurs (a scatter-add of ones), and inverts each count where it is positive (zero elsewhere). The reference
  does the same with the same operations on the same argument, so the four vectors the first launch finds are the
  reference's stages of that argument.
-/
import proofs.«105314_j12644383719477_2_alg».proof.Proof.Gen.KernelIdeal.Frame
import proofs.«105314_j12644383719477_2_alg».proof.Proof.RefRead
import proofs.«105314_j12644383719477_2_alg».proof.Proof.Args
import proofs.«105314_j12644383719477_2_alg».proof.Proof.Carry

set_option maxRecDepth 16384

noncomputable section

namespace Cert.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The four stretches of host operations before the first launch, as one fold from the launch memory. -/
theorem W4_unfold (b : DevRef τ sig) : W4 m ρ c b
    = StableHlo.after hostOps0_3 (StableHlo.after hostOps0_2 (StableHlo.after hostOps0_1 (StableHlo.after hostOps0 (W0 m ρ c)))) b := rfl

/-- The node numbers of the incidence list. -/
theorem rows_eq : W4 m ρ c (Proc.devRef .tc main_v1) = val_main_v1 (F := Ideal) (a1 m c) := by
  rw [W4_unfold]
  after_results_simp
  rfl

/-- The hyperedge numbers of the incidence list. -/
theorem cols_eq : W4 m ρ c (Proc.devRef .tc main_v3) = val_main_v3 (F := Ideal) (a1 m c) := by
  rw [W4_unfold]
  after_results_simp
  rfl

/-- The inverse of each node's degree (zero for a node of no hyperedge). -/
theorem dinv_eq : W4 m ρ c (Proc.devRef .tc main_v12) = val_main_v12 (F := Ideal) (a1 m c) := by
  rw [W4_unfold]
  after_results_simp
  -- the called function's values are stored through typed references: transports along equations that hold by
  -- computation, so they are the identity
  simp only [TRef.toBuf, TRef.ofBuf, cast_eq]
  rfl

/-- The inverse of each hyperedge's size (zero for an empty hyperedge). -/
theorem binv_eq : W4 m ρ c (Proc.devRef .tc main_v21) = val_main_v21 (F := Ideal) (a1 m c) := by
  rw [W4_unfold]
  after_results_simp
  -- the called function's values are stored through typed references: transports along equations that hold by
  -- computation, so they are the identity
  simp only [TRef.toBuf, TRef.ofBuf, cast_eq]
  rfl

end Cert.Bridge

end
-- ==== Proof.Aggregates.lean ====
/-
  The hypergraph aggregation between two launches. After each of the first three launches the kernel's program
  gathers the launch's rows at the node numbers of the incidence list, adds them up per hyperedge, scales each
  hyperedge's sum by the inverse of its size, gathers those at the hyperedge numbers and adds them up per node.
  The reference applies the same gathers and scatter-adds to its own matrix product; the kernel's program differs only
  in storing the two gathered tables in a narrower float format, which at the exact instance changes nothing. So
  once the launch's output is the reference's product, the aggregated table is the reference's.
-/
import proofs.«105314_j12644383719477_2_alg».proof.Proof.Gen.KernelIdeal.Frame
import proofs.«105314_j12644383719477_2_alg».proof.Proof.RefRead
import proofs.«105314_j12644383719477_2_alg».proof.Proof.Args
import proofs.«105314_j12644383719477_2_alg».proof.Proof.Carry

set_option maxRecDepth 16384

noncomputable section

namespace Cert.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! The three stretches are the same operations on the three layers' buffers. -/

theorem stage1a (hr : W4 m ρ c (Proc.devRef .tc main_v1) = val_main_v1 (F := Ideal) (a1 m c))
    (hc : W4 m ρ c (Proc.devRef .tc main_v3) = val_main_v3 (F := Ideal) (a1 m c))
    (hb : W4 m ρ c (Proc.devRef .tc main_v21) = val_main_v21 (F := Ideal) (a1 m c))
    (h : W5 m ρ c (Proc.devRef .tc main_v22) = val_main_v22 (F := Ideal) (a0 m c) (a3 m c)) :
    W6 m ρ c (Proc.devRef .tc main_v48) = val_main_v45 (F := Ideal) (a0 m c) (a1 m c) (a3 m c) := by
  show StableHlo.after hostOps1 (W5 m ρ c) (Proc.devRef .tc main_v48) = _
  after_results_simp
  rw [h, (Carry.at5 m ρ c main_v1 (by decide)).trans hr, (Carry.at5 m ρ c main_v3 (by decide)).trans hc,
    (Carry.at5 m ρ c main_v21 (by decide)).trans hb]
  rfl

theorem stage2a (hr : W4 m ρ c (Proc.devRef .tc main_v1) = val_main_v1 (F := Ideal) (a1 m c))
    (hc : W4 m ρ c (Proc.devRef .tc main_v3) = val_main_v3 (F := Ideal) (a1 m c))
    (hb : W4 m ρ c (Proc.devRef .tc main_v21) = val_main_v21 (F := Ideal) (a1 m c))
    (h : W7 m ρ c (Proc.devRef .tc main_v51) = val_main_v53 (F := Ideal) (a0 m c) (a1 m c) (a3 m c) (a4 m c) (a5 m c)) :
    W8 m ρ c (Proc.devRef .tc main_v77) = val_main_v76 (F := Ideal) (a0 m c) (a1 m c) (a3 m c) (a4 m c) (a5 m c) := by
  show StableHlo.after hostOps2 (W7 m ρ c) (Proc.devRef .tc main_v77) = _
  after_results_simp
  rw [h, (Carry.at7 m ρ c main_v1 (by decide)).trans hr, (Carry.at7 m ρ c main_v3 (by decide)).trans hc,
    (Carry.at7 m ρ c main_v21 (by decide)).trans hb]
  rfl

theorem stage3a (hr : W4 m ρ c (Proc.devRef .tc main_v1) = val_main_v1 (F := Ideal) (a1 m c))
    (hc : W4 m ρ c (Proc.devRef .tc main_v3) = val_main_v3 (F := Ideal) (a1 m c))
    (hb : W4 m ρ c (Proc.devRef .tc main_v21) = val_main_v21 (F := Ideal) (a1 m c))
    (h : W9 m ρ c (Proc.devRef .tc main_v80) = val_main_v84 (F := Ideal) (a0 m c) (a1 m c) (a3 m c) (a4 m c) (a5 m c) (a6 m c) (a7 m c)) :
    W10 m ρ c (Proc.devRef .tc main_v106) = val_main_v107 (F := Ideal) (a0 m c) (a1 m c) (a3 m c) (a4 m c) (a5 m c) (a6 m c) (a7 m c) := by
  show StableHlo.after hostOps3 (W9 m ρ c) (Proc.devRef .tc main_v106) = _
  after_results_simp
  rw [h, (Carry.at9 m ρ c main_v1 (by decide)).trans hr, (Carry.at9 m ρ c main_v3 (by decide)).trans hc,
    (Carry.at9 m ρ c main_v21 (by decide)).trans hb]
  rfl

end Cert.Bridge

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.DenseRows.lean ====
/-
  A dense layer on a matrix of rows, entry by entry over the extended reals.

  `rowsDot x w` is the product of a matrix of rows `x : M×K` with weights `w : K×N`: entry `(r, j)` is
  `∑ k, x (r, k) * w (k, j)`. `actRows x d b` is the activation that precedes the later layers: row `r` of `x`
  scaled by the one entry `d (r, 0)` of a column, shifted by the one row `b (0, ·)`, and clamped below at zero.
  Entry `(r, j)` of either depends on row `r` of `x` only (and on column `j` of `w`), so the product of a
  block of consecutive rows is the same block of rows of the product of the whole matrix: `rowsDot_rows`,
  `actRows_rows`. This is why a launch that walks the rows in blocks computes the whole product.
-/
import Idealize.ShloMosaic.PureOps.Ideal.Laws
import Idealize.ShloMosaic.Lib.ValueIdx

noncomputable section

open scoped BigOperators

namespace Cert.Dense

open Idealize.ShloMosaic Idealize.ShloMosaic.ValueIdx

variable {M M' K N : Nat}

/-- The matrix product of rows `x` with weights `w`, entry by entry. -/
def rowsDot (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- Each row scaled by its entry of the column `d`, shifted by the row `b`, clamped below at zero. -/
def actRows (x : (⟨2, ![M, K]⟩ : Shape).Idx → EReal) (d : (⟨2, ![M, 1]⟩ : Shape).Idx → EReal)
    (b : (⟨2, ![1, K]⟩ : Shape).Idx → EReal) : (⟨2, ![M, K]⟩ : Shape).Idx → EReal :=
  fun i => max (x (ix2 (i 0) (i 1)) * d (ix2 (i 0) (0 : Fin 1)) + b (ix2 (0 : Fin 1) (i 1))) 0

/-- The product at `(r, j)`. -/
theorem rowsDot_apply (x : (⟨2, ![M, K]⟩ : Shape).Idx → EReal) (w : (⟨2, ![K, N]⟩ : Shape).Idx → EReal)
    (r : Fin M) (j : Fin N) : rowsDot x w (ix2 r j) = ∑ k : Fin K, x (ix2 r k) * w (ix2 k j) := rfl

/-- The activation at `(r, k)`. -/
theorem actRows_apply (x : (⟨2, ![M, K]⟩ : Shape).Idx → EReal) (d : (⟨2, ![M, 1]⟩ : Shape).Idx → EReal)
    (b : (⟨2, ![1, K]⟩ : Shape).Idx → EReal) (r : Fin M) (k : Fin K) :
    actRows x d b (ix2 r k) = max (x (ix2 r k) * d (ix2 r (0 : Fin 1)) + b (ix2 (0 : Fin 1) k)) 0 := rfl

/-- Row `p` of a block `x` of rows being row `r` of the whole matrix `X`, and the weights the same, entry
    `(p, q)` of the block's product is entry `(r, q)` of the whole product. -/
theorem rowsDot_rows (X : (⟨2, ![M', K]⟩ : Shape).Idx → EReal) (W : (⟨2, ![K, N]⟩ : Shape).Idx → EReal)
    (x : (⟨2, ![M, K]⟩ : Shape).Idx → EReal) (w : (⟨2, ![K, N]⟩ : Shape).Idx → EReal)
    (p : Fin M) (r : Fin M') (q : Fin N)
    (hx : ∀ k : Fin K, x (ix2 p k) = X (ix2 r k)) (hw : ∀ k : Fin K, w (ix2 k q) = W (ix2 k q)) :
    rowsDot x w (ix2 p q) = rowsDot X W (ix2 r q) := by
  rw [rowsDot_apply, rowsDot_apply]
  exact Finset.sum_congr rfl fun k _ => by rw [hx k, hw k]

/-- Row `p` of a block being row `r` of the whole matrix, its entry of the column the whole column's entry at `r`,
    and the shift the same, the activation of the block at `(p, k)` is the activation of the whole at `(r, k)`. -/
theorem actRows_rows (X : (⟨2, ![M', K]⟩ : Shape).Idx → EReal) (D : (⟨2, ![M', 1]⟩ : Shape).Idx → EReal)
    (B : (⟨2, ![1, K]⟩ : Shape).Idx → EReal)
    (x : (⟨2, ![M, K]⟩ : Shape).Idx → EReal) (d : (⟨2, ![M, 1]⟩ : Shape).Idx → EReal)
    (b : (⟨2, ![1, K]⟩ : Shape).Idx → EReal) (p : Fin M) (r : Fin M') (k : Fin K)
    (hx : x (ix2 p k) = X (ix2 r k)) (hd : d (ix2 p (0 : Fin 1)) = D (ix2 r (0 : Fin 1)))
    (hb : b (ix2 (0 : Fin 1) k) = B (ix2 (0 : Fin 1) k)) :
    actRows x d b (ix2 p k) = actRows X D B (ix2 r k) := by
  rw [actRows_apply, actRows_apply, hx, hd, hb]

end Cert.Dense

end
-- ==== Proof.ReadAt.lean ====
/-
  Reading an array at an index with the element type spelt out. A buffer's contents are a function from the indices of
  its shape to its elements; at the exact instance a float element is an extended real and an integer element a word.
  These two abbreviations state a read with that element type in plain sight, so that sums and products of reads are
  sums and products of extended reals.
-/
import Idealize.ShloMosaic.PureOps.Ideal
import Idealize.ShloMosaic.Lib.ValueIdx

namespace Cert.Arr

open Idealize.ShloMosaic

/-- A float array of shape `S`, at the exact instance, read at an index: an extended real. -/
abbrev fat (S : Shape) (f : S.Idx → EReal) (i : S.Idx) : EReal := f i

/-- A 32-bit integer array of shape `S` read at an index: a word. -/
abbrev iat (S : Shape) (f : S.Idx → BitVec 32) (i : S.Idx) : BitVec 32 := f i

end Cert.Arr
-- ==== Proof.Region0.lean ====
/-
  Region 0 of the idealized kernel: the input features times the first weight matrix, on all 50000 rows.

  The launch walks the 50000 rows of the feature matrix in 25 blocks of 2000 consecutive rows. At block `t` the
  body reads rows `2000 t … 2000 t + 1999` of the features and the whole weight matrix and leaves in the output's
  block their product. Entry `(p, q)` of that product depends on row `p` of the block only, which is row
  `2000 t + p` of the whole matrix; so what block `t` writes back is rows `2000 t … 2000 t + 1999` of ONE
  matrix, the product of the whole feature matrix with the weights (`product`). The 25 blocks cover every row (row
  `r` lies in block `r / 2000`), hence after the last block the output array is that matrix.
-/
import proofs.«105314_j12644383719477_2_alg».proof.Proof.Gen.KernelIdeal.Frame
import Idealize.ShloMosaic.Lib.ValueIdx
import Idealize.ShloMosaic.Lib.Pipeline.Value
import Idealize.ShloMosaic.PureOps.Ideal
import proofs.«105314_j12644383719477_2_alg».proof.Proof.LibPlainDot
import proofs.«105314_j12644383719477_2_alg».proof.Proof.DenseRows
import proofs.«105314_j12644383719477_2_alg».proof.Proof.ReadAt

noncomputable section

open scoped BigOperators

namespace Cert.KernelIdeal.Regions

open Cert.Arr Idealize.ShloMosaic Idealize.ShloMosaic.ValueIdx Idealize.ShloMosaic.TcCoe Idealize.SL.Sem Cert.KernelIdeal Cert.KernelIdeal.Gen
open Idealize.ShloMosaic.Pipeline (Dat)

namespace Input

/-- The two zero offsets of a whole-buffer access, as the constant function. -/
theorem zeros : (![0, 0] : Fin 2 → Nat) = fun _ => 0 := funext fun a => by fin_cases a <;> rfl

/-- The body's arithmetic on its two loaded blocks: a change of float format is the identity on the extended
    reals, and the contraction into the zero accumulator is the plain sum over the shared axis. So the payload is
    the block of rows times the weights. -/
theorem pay_eq (x : Vec Ideal S2000x128 .f32) (w : Vec Ideal S128x256 .f32) :
    (k0_pay1 (F := Ideal) x w : S2000x256.Idx → EReal) = Dense.rowsDot x w := by
  funext y
  obtain ⟨p, q, rfl⟩ : ∃ (p : Fin 2000) (q : Fin 256), y = ix2 p q := ⟨y 0, y 1, eq_ix2 y⟩
  unfold k0_pay1
  refine (Cert.Lib.PlainDot.matmul_plain_zero_apply (M := 2000) (K := 128) (N := 256) none _ _ p q).trans ?_
  rw [Dense.rowsDot_apply]
  exact Finset.sum_congr rfl fun k _ => rfl

variable (V : (c : Dev nD) → (b : Ref sig .tc) → Buf (Elt Ideal) ((c : Thread nD τ).loc b)) (c : Dev nD)

/-- Where each window's block sits at point `t` (decided over the 25 points): the feature rows and the output move
    down one block of rows per point; the weights are always block `(0, 0)`. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `2000 t …` of the feature matrix. -/
theorem rows_features (t : Fin cfg0.N) (y : S2000x128.Idx) (i : S50000x128.Idx)
    (h0 : (i 0).val = 2000 * t.val + (y 0).val) (h1 : (i 1).val = (y 1).val) :
    (iblk0 V c 0 t : S2000x128.Idx → EReal) y = (V c main_arg0 : S50000x128.Idx → EReal) i := by
  obtain ⟨e0, e1, -⟩ := idx t
  unfold iblk0
  rw [View.read_apply]
  show (V c main_arg0 : S50000x128.Idx → EReal) _ = (V c main_arg0 : S50000x128.Idx → EReal) i
  refine congrArg (V c main_arg0 : S50000x128.Idx → EReal) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weight block at every point is the whole weight matrix. -/
theorem all_weights (t : Fin cfg0.N) (y : S128x256.Idx) :
    (iblk0 V c 1 t : S128x256.Idx → EReal) y = (V c main_arg3 : S128x256.Idx → EReal) y := by
  obtain ⟨-, -, e0, e1, -⟩ := idx t
  unfold iblk0
  rw [View.read_apply]
  show (V c main_arg3 : S128x256.Idx → EReal) _ = (V c main_arg3 : S128x256.Idx → EReal) y
  refine congrArg (V c main_arg3 : S128x256.Idx → EReal) ?_
  funext a
  apply Fin.ext
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- The whole output matrix: the feature matrix times the weights. -/
def product : S50000x256.Idx → EReal :=
  Dense.rowsDot (V c main_arg0 : S50000x128.Idx → EReal) (V c main_arg3 : S128x256.Idx → EReal)

/-- The product computed from the blocks of point `t`, at an entry of the block, is the whole product at the
    entry `2000 t` rows further down. -/
theorem block_rows (t : Fin cfg0.N) (y : S2000x256.Idx) (i : S50000x256.Idx)
    (h0 : (i 0).val = 2000 * t.val + (y 0).val) (h1 : (i 1).val = (y 1).val) :
    Dense.rowsDot (iblk0 V c 0 t : S2000x128.Idx → EReal) (iblk0 V c 1 t : S128x256.Idx → EReal) y = product V c i := by
  obtain ⟨p, q, rfl⟩ : ∃ (p : Fin 2000) (q : Fin 256), y = ix2 p q := ⟨y 0, y 1, eq_ix2 y⟩
  obtain ⟨r, j, rfl⟩ : ∃ (r : Fin 50000) (j : Fin 256), i = ix2 r j := ⟨i 0, i 1, eq_ix2 i⟩
  have hr : r.val = 2000 * t.val + p.val := h0
  obtain rfl : j = q := Fin.ext h1
  unfold product
  refine Dense.rowsDot_rows _ _ _ _ p r j (fun k => ?_) (fun k => ?_)
  · exact rows_features V c t (ix2 p k) (ix2 r k) hr rfl
  · exact all_weights V c t (ix2 k j)

/-- What point `t` writes back is block `t` of the whole output matrix. -/
theorem flushed_eq (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero zeros]
  simp only [View.ld_unit_zero (S := S2000x128) zeros, View.ld_unit_zero (S := S128x256) zeros]
  rw [pay_eq]
  obtain ⟨-, -, -, -, e0, e1⟩ := idx t
  funext y
  refine block_rows V c t y (((cfg0.win 2).blk t).view.emb y) ?_ ?_
  · show win0_2.index t (0 : Fin 2) * 2000 + 1 * (y 0).val = 2000 * t.val + (y 0).val; rw [e0]; omega
  · show win0_2.index t (1 : Fin 2) * 256 + 1 * (y 1).val = (y 1).val; rw [e1]; omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v22).slice (win0_2.rect t)).set ↔ _
  rw [View.set_slice_whole, Rect.mem_set_unit]
  exact Iff.rfl

/-- Every entry of the output array is written back by some point: row `r` by point `r / 2000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e0, e1⟩ := idx t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 256 ≤ (i 1).val ∧ (i 1).val < win0_2.index t (1 : Fin 2) * 256 + 256
    rw [e1]; omega

/-- After the 25 points the output array is the whole output matrix. -/
theorem final : (dat0 (F := Ideal) V c).arrAt 2 cfg0.N = product V c :=
  (dat0 (F := Ideal) V c).arrAt_eq_of_cover 2 (product V c) (fun t _ => flushed_eq V c t) cover

end Input

variable (V : (c : Dev nD) → (b : Ref sig .tc) → Buf (Elt Ideal) ((c : Thread nD τ).loc b)) (c : Dev nD)

/-- Region 0: the product of the node features with the first weight matrix. -/
theorem arr0 (r : Fin 50000) (j : Fin 256) :
    fat S50000x256 ((dat0 (F := Ideal) V c).arrAt 2 cfg0.N) (ix2 r j)
      = ∑ k : Fin 128, fat S50000x128 (V c main_arg0) (ix2 r k) * fat S128x256 (V c main_arg3) (ix2 k j) :=
  (congrFun (Input.final V c) (ix2 r j)).trans rfl

end Cert.KernelIdeal.Regions

end
-- ==== Proof.Stage0.lean ====
/-
  The first launch against the reference's first product. The first launch leaves in its output array the node
  features times the first layer's weights, entry by entry the plain sum over the 128 shared coordinates; the two
  operands are argument arrays, untouched since launch; and the reference's first contraction, on the extended
  reals, is the same sum of the same arguments.
-/
import proofs.«105314_j12644383719477_2_alg».proof.Proof.Gen.KernelIdeal.Frame
import proofs.«105314_j12644383719477_2_alg».proof.Proof.RefRead
import proofs.«105314_j12644383719477_2_alg».proof.Proof.Args
import proofs.«105314_j12644383719477_2_alg».proof.Proof.Carry
import proofs.«105314_j12644383719477_2_alg».proof.Proof.Region0

set_option maxRecDepth 16384

noncomputable section

open scoped BigOperators

namespace Cert.Bridge

open Cert.KernelIdeal Cert.KernelIdeal.Gen Cert.ReferenceIdeal.ReadP
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The left operand's index of the reference's first contraction at output (r, j) and shared coordinate k is (r, k). -/
theorem lidx_v22 (r : Fin 50000) (j : Fin 256) (k : Fin 128) : lidx_main_v22 (ix2 r j) k = ix2 r k :=
  funext fun a => match a with
    | ⟨0, _⟩ => rfl
    | ⟨1, _⟩ => rfl

/-- The right operand's index there is (k, j). -/
theorem ridx_v22 (r : Fin 50000) (j : Fin 256) (k : Fin 128) : ridx_main_v22 (ix2 r j) k = ix2 k j :=
  funext fun a => match a with
    | ⟨0, _⟩ => rfl
    | ⟨1, _⟩ => rfl

/-- The first launch's output array is the reference's first product of the node features and the first weights. -/
theorem stage0 : W5 m ρ c (Proc.devRef .tc main_v22) = val_main_v22 (F := Ideal) (a0 m c) (a3 m c) := by
  refine (W5_arr m ρ c 2).trans ?_
  have e0 : V4 m ρ c main_arg0 = a0 m c := Cert.KernelIdeal.Carry.args_at4 m ρ c main_arg0 (by decide)
  have e3 : V4 m ρ c main_arg3 = a3 m c := Cert.KernelIdeal.Carry.args_at4 m ρ c main_arg3 (by decide)
  funext i
  obtain ⟨r, j, rfl⟩ : ∃ (r : Fin 50000) (j : Fin 256), i = ix2 r j := ⟨i 0, i 1, eq_ix2 i⟩
  refine (Cert.KernelIdeal.Regions.arr0 (V4 m ρ) c r j).trans ?_
  rw [val_main_v22_apply, e0, e3]
  refine Finset.sum_congr rfl fun k _ => ?_
  rw [lidx_v22, ridx_v22]

end Cert.Bridge

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.Region1.lean ====
/-
  Region 1 of the idealized kernel: the first hidden layer on all 50000 rows.

  The launch walks the 50000 rows of its input in 25 blocks of 2000 consecutive rows. At block `t` the body
  reads rows `2000 t … 2000 t + 1999` of the feature matrix and of the column of row scales, the one bias row and
  the whole weight matrix, and leaves in the output's block the activated rows times the weights. Entry `(p, q)`
  of that product depends on row `p` of the block only, which is row `2000 t + p` of the whole matrix; so what
  block `t` writes back is rows `2000 t … 2000 t + 1999` of ONE matrix, the product of all the activated rows
  with the weights (`layer`). The 25 blocks cover every row (row `r` lies in block `r / 2000`), hence after
  the last block the output array is that matrix.
-/
import proofs.«105314_j12644383719477_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal
import proofs.«105314_j12644383719477_2_alg».proof.Proof.LibPlainDot
import proofs.«105314_j12644383719477_2_alg».proof.Proof.LibKeepdims
import proofs.«105314_j12644383719477_2_alg».proof.Proof.DenseRows
import proofs.«105314_j12644383719477_2_alg».proof.Proof.ReadAt

noncomputable section

open scoped BigOperators

namespace Cert.KernelIdeal.Regions

open Cert.Arr Idealize.ShloMosaic Idealize.ShloMosaic.ValueIdx Idealize.ShloMosaic.TcCoe Idealize.SL.Sem Cert.KernelIdeal Cert.KernelIdeal.Gen
open Idealize.ShloMosaic.Pipeline (Dat)

namespace Hidden1

/-- The two zero offsets of a whole-buffer access, as the constant function. -/
theorem zeros : (![0, 0] : Fin 2 → Nat) = fun _ => 0 := funext fun a => by fin_cases a <;> rfl

/-- The body's arithmetic on its four loaded blocks: a change of float format is the identity on the extended
    reals, the scale column and the bias row are broadcast along the rows' entries, and the contraction into the
    zero accumulator is the plain sum over the shared axis. So the payload is the activated rows times the weights. -/
theorem pay_eq (x : Vec Ideal S2000x256 .f32) (d : Vec Ideal S2000x1 .f32) (b : Vec Ideal S1x256 .f32)
    (w : Vec Ideal S256x256 .f32) :
    (k1_pay1 (F := Ideal) x d b w : S2000x256.Idx → EReal) = Dense.rowsDot (Dense.actRows x d b) w := by
  funext y
  obtain ⟨p, q, rfl⟩ : ∃ (p : Fin 2000) (q : Fin 256), y = ix2 p q := ⟨y 0, y 1, eq_ix2 y⟩
  unfold k1_pay1
  refine (Cert.Lib.PlainDot.matmul_plain_zero_apply (M := 2000) (K := 256) (N := 256) none _ _ p q).trans ?_
  rw [Dense.rowsDot_apply]
  refine Finset.sum_congr rfl fun k _ => ?_
  rw [Dense.actRows_apply]
  have e0 : shapeCast S2000x256 x shapeCasts_S2000x256_S2000x256 (ix2 p k) = x (ix2 p k) := by
    rw [shapeCast_self]
  have e1 : broadcastTo S2000x256 (shapeCast S2000x1 d shapeCasts_S2000x1_S2000x1) broadcasts_S2000x1_S2000x256 (ix2 p k)
      = d (ix2 p (0 : Fin 1)) := by
    rw [shapeCast_self]; exact Cert.Lib.Keepdims.broadcastTo_a1_ab_apply d _ p k
  have e2 : broadcastTo S2000x256 (shapeCast S1x256 b shapeCasts_S1x256_S1x256) broadcasts_S1x256_S2000x256 (ix2 p k)
      = b (ix2 (0 : Fin 1) k) := by
    rw [shapeCast_self]; exact broadcastTo_1b_ab_apply b _ p k
  show max (shapeCast S2000x256 x shapeCasts_S2000x256_S2000x256 (ix2 p k)
        * broadcastTo S2000x256 (shapeCast S2000x1 d shapeCasts_S2000x1_S2000x1) broadcasts_S2000x1_S2000x256 (ix2 p k)
        + broadcastTo S2000x256 (shapeCast S1x256 b shapeCasts_S1x256_S1x256) broadcasts_S1x256_S2000x256 (ix2 p k))
      (Ideal.ofBits .f32 0x00000000#32) * w (ix2 k q) = _
  rw [e0, e1, e2, Ideal.ofBits_zero_f32]

variable (V : (c : Dev nD) → (b : Ref sig .tc) → Buf (Elt Ideal) ((c : Thread nD τ).loc b)) (c : Dev nD)

/-- Where each window's block sits at point `t` (decided over the 25 points): the feature rows, the scale column
    and the output move down one block of rows per point; the bias row and the weights are always block `(0, 0)`. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature block at point `t` is rows `2000 t …` of the feature matrix. -/
theorem rows_features (t : Fin cfg1.N) (y : S2000x256.Idx) (i : S50000x256.Idx)
    (h0 : (i 0).val = 2000 * t.val + (y 0).val) (h1 : (i 1).val = (y 1).val) :
    (iblk1 V c 0 t : S2000x256.Idx → EReal) y = (V c main_v48 : S50000x256.Idx → EReal) i := by
  obtain ⟨e0, e1, -⟩ := idx t
  unfold iblk1
  rw [View.read_apply]
  show (V c main_v48 : S50000x256.Idx → EReal) _ = (V c main_v48 : S50000x256.Idx → EReal) i
  refine congrArg (V c main_v48 : S50000x256.Idx → EReal) ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The scale block at point `t` is rows `2000 t …` of the scale column. -/
theorem rows_scale (t : Fin cfg1.N) (y : S2000x1.Idx) (i : S50000x1.Idx)
    (h0 : (i 0).val = 2000 * t.val + (y 0).val) (h1 : (i 1).val = (y 1).val) :
    (iblk1 V c 1 t : S2000x1.Idx → EReal) y = (V c main_v49 : S50000x1.Idx → EReal) i := by
  obtain ⟨-, -, e0, e1, -⟩ := idx t
  unfold iblk1
  rw [View.read_apply]
  show (V c main_v49 : S50000x1.Idx → EReal) _ = (V c main_v49 : S50000x1.Idx → EReal) i
  refine congrArg (V c main_v49 : S50000x1.Idx → EReal) ?_
  funext a
  apply Fin.ext
  match a with
  | ⟨0, _⟩ => show win1_1.index t (0 : Fin 2) * 2000 + 1 * (y 0).val = (i 0).val; rw [e0, h0]; omega
  | ⟨1, _⟩ => show win1_1.index t (1 : Fin 2) * 1 + 1 * (y 1).val = (i 1).val; rw [e1, h1]; omega

/-- The bias block at every point is the whole bias row. -/
theorem row_bias (t : Fin cfg1.N) (y : S1x256.Idx) :
    (iblk1 V c 2 t : S1x256.Idx → EReal) y = (V c main_v50 : S1x256.Idx → EReal) y := by
  obtain ⟨-, -, -, -, e0, e1, -⟩ := idx t
  unfold iblk1
  rw [View.read_apply]
  show (V c main_v50 : S1x256.Idx → EReal) _ = (V c main_v50 : S1x256.Idx → EReal) y
  refine congrArg (V c main_v50 : S1x256.Idx → EReal) ?_
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The weight block at every point is the whole weight matrix. -/
theorem all_weights (t : Fin cfg1.N) (y : S256x256.Idx) :
    (iblk1 V c 3 t : S256x256.Idx → EReal) y = (V c main_arg5 : S256x256.Idx → EReal) y := by
  obtain ⟨-, -, -, -, -, -, e0, e1, -⟩ := idx t
  unfold iblk1
  rw [View.read_apply]
  show (V c main_arg5 : S256x256.Idx → EReal) _ = (V c main_arg5 : S256x256.Idx → EReal) y
  refine congrArg (V c main_arg5 : S256x256.Idx → EReal) ?_
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The whole output matrix: every activated row of the features times the weights. -/
def layer : S50000x256.Idx → EReal :=
  Dense.rowsDot (Dense.actRows (V c main_v48 : S50000x256.Idx → EReal) (V c main_v49 : S50000x1.Idx → EReal)
    (V c main_v50 : S1x256.Idx → EReal)) (V c main_arg5 : S256x256.Idx → EReal)

/-- The product computed from the blocks of point `t`, at an entry of the block, is the whole product at the
    entry `2000 t` rows further down. -/
theorem block_rows (t : Fin cfg1.N) (y : S2000x256.Idx) (i : S50000x256.Idx)
    (h0 : (i 0).val = 2000 * t.val + (y 0).val) (h1 : (i 1).val = (y 1).val) :
    Dense.rowsDot (Dense.actRows (iblk1 V c 0 t : S2000x256.Idx → EReal) (iblk1 V c 1 t : S2000x1.Idx → EReal)
        (iblk1 V c 2 t : S1x256.Idx → EReal)) (iblk1 V c 3 t : S256x256.Idx → EReal) y = layer V c i := by
  obtain ⟨p, q, rfl⟩ : ∃ (p : Fin 2000) (q : Fin 256), y = ix2 p q := ⟨y 0, y 1, eq_ix2 y⟩
  obtain ⟨r, j, rfl⟩ : ∃ (r : Fin 50000) (j : Fin 256), i = ix2 r j := ⟨i 0, i 1, eq_ix2 i⟩
  have hr : r.val = 2000 * t.val + p.val := h0
  obtain rfl : j = q := Fin.ext h1
  unfold layer
  refine Dense.rowsDot_rows _ _ _ _ p r j (fun k => ?_) (fun k => ?_)
  · refine Dense.actRows_rows _ _ _ _ _ _ p r k ?_ ?_ ?_
    · exact rows_features V c t (ix2 p k) (ix2 r k) hr rfl
    · exact rows_scale V c t (ix2 p (0 : Fin 1)) (ix2 r (0 : Fin 1)) hr rfl
    · exact row_bias V c t (ix2 (0 : Fin 1) k)
  · exact all_weights V c t (ix2 k j)

/-- What point `t` writes back is block `t` of the whole output matrix. -/
theorem flushed_eq (t : Fin cfg1.N) :
    (dat1 (F := Ideal) V c).flushed 4 t = ((cfg1.win 4).blk t).view.read (Elt Ideal) (layer V c) := by
  show (cfg1.win 4).cut (grid1.coords t) ((dat1 (F := Ideal) V c).after 4 t) = _
  rw [after1_4]
  unfold out1_4
  rw [View.canon_unit_zero zeros]
  simp only [View.ld_unit_zero (S := S2000x256) zeros, View.ld_unit_zero (S := S2000x1) zeros,
    View.ld_unit_zero (S := S1x256) zeros, View.ld_unit_zero (S := S256x256) zeros]
  rw [pay_eq]
  obtain ⟨-, -, -, -, -, -, -, -, e0, e1⟩ := idx t
  funext y
  refine block_rows V c t y (((cfg1.win 4).blk t).view.emb y) ?_ ?_
  · show win1_4.index t (0 : Fin 2) * 2000 + 1 * (y 0).val = 2000 * t.val + (y 0).val; rw [e0]; omega
  · show win1_4.index t (1 : Fin 2) * 256 + 1 * (y 1).val = (y 1).val; rw [e1]; omega

/-- An index of the output array is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v51).slice (win1_4.rect t)).set ↔ _
  rw [View.set_slice_whole, Rect.mem_set_unit]
  exact Iff.rfl

/-- Every entry of the output array is written back by some point: row `r` by point `r / 2000`. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, e0, e1⟩ := idx t
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 256 ≤ (i 1).val ∧ (i 1).val < win1_4.index t (1 : Fin 2) * 256 + 256
    rw [e1]; omega

/-- After the 25 points the output array is the whole output matrix. -/
theorem final : (dat1 (F := Ideal) V c).arrAt 4 cfg1.N = layer V c :=
  (dat1 (F := Ideal) V c).arrAt_eq_of_cover 4 (layer V c) (fun t _ => flushed_eq V c t) cover

end Hidden1

variable (V : (c : Dev nD) → (b : Ref sig .tc) → Buf (Elt Ideal) ((c : Thread nD τ).loc b)) (c : Dev nD)

/-- Region 1: every row scaled by its entry of the column, shifted by the bias row, clamped below at zero, then multiplied by the weights. -/
theorem arr1 (r : Fin 50000) (j : Fin 256) :
    fat S50000x256 ((dat1 (F := Ideal) V c).arrAt 4 cfg1.N) (ix2 r j)
      = ∑ k : Fin 256, max (fat S50000x256 (V c main_v48) (ix2 r k) * fat S50000x1 (V c main_v49) (ix2 r 0)
            + fat S1x256 (V c main_v50) (ix2 0 k)) 0 * fat S256x256 (V c main_arg5) (ix2 k j) :=
  (congrFun (Hidden1.final V c) (ix2 r j)).trans rfl

end Cert.KernelIdeal.Regions

end
-- ==== Proof.Stage1.lean ====
/-
  The first hidden layer of the kernel's program against the reference's.

  On the kernel's side the launch's output array is, entry `(r, j)`, the sum over `k` of the activated entry
  `max (x (r, k) * d (r, 0) + b (0, k)) 0` times the weight `w (k, j)`, where `x` is the aggregated features the
  stretch of host operations before the launch left, `d` the inverse node degrees recast as a column, `b` the
  layer's bias recast as a row and `w` the layer's weights. A vector recast as a column or as a row reads the
  vector's entry, the inverse degrees and the arguments are unchanged since the first launch's entry, and the
  aggregated features are the reference's by hypothesis. On the reference's side the same entry is the host's
  contraction of the rectified sum with the weights, whose factors are a product with the inverse degrees
  broadcast along each row and a sum with the bias broadcast along each column; on the extended reals the
  contraction is the same plain sum over `k`. So the two arrays agree entry by entry.
-/
import proofs.«105314_j12644383719477_2_alg».proof.Proof.Gen.KernelIdeal.Frame
import proofs.«105314_j12644383719477_2_alg».proof.Proof.RefRead
import proofs.«105314_j12644383719477_2_alg».proof.Proof.Args
import proofs.«105314_j12644383719477_2_alg».proof.Proof.Carry
import proofs.«105314_j12644383719477_2_alg».proof.Proof.ReadAt
import proofs.«105314_j12644383719477_2_alg».proof.Proof.LibKeepdims
import proofs.«105314_j12644383719477_2_alg».proof.Proof.Region1
import Idealize.ShloMosaic.Lib.ValueIdx
import Idealize.ShloMosaic.Lib.ValueLayout
import Idealize.ShloMosaic.PureOps.Ideal

set_option maxRecDepth 16384

noncomputable section

open scoped BigOperators

namespace Cert.Bridge

open Cert.Arr Cert.KernelIdeal Cert.KernelIdeal.Gen Cert.ReferenceIdeal.ReadP
open Idealize.ShloMosaic Idealize.ShloMosaic.ValueIdx Idealize.ShloMosaic.TcCoe Idealize.SL.Sem

namespace Hidden1

/-- The reference's layer at an entry: the plain sum over `k` of the rectified, scaled and shifted aggregate times
    the weight. -/
theorem ref_entry (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (r : Fin 50000) (j : Fin 256) :
    val_main_v53 (F := Ideal) x0 x1 x3 x4 x5 (ix2 r j)
      = ∑ k : Fin 256, max (val_main_v45 (F := Ideal) x0 x1 x3 (ix2 r k) * val_main_v12 (F := Ideal) x1 (ix1 r)
          + x4 (ix1 k)) 0 * x5 (ix2 k j) := by
  rw [val_main_v53_apply]
  refine Finset.sum_congr rfl fun k _ => ?_
  have el : lidx_main_v53 (ix2 r j) k = ix2 r k := funext fun a => by match a with | ⟨0, _⟩ => rfl | ⟨1, _⟩ => rfl
  have er : ridx_main_v53 (ix2 r j) k = ix2 k j := funext fun a => by match a with | ⟨0, _⟩ => rfl | ⟨1, _⟩ => rfl
  have ed : idx_main_v46 (idx_main_v47 (ix2 r k)) = ix1 r := funext fun a => by match a with | ⟨0, _⟩ => rfl
  have eb : idx_main_v49 (idx_main_v50 (ix2 r k)) = ix1 k := funext fun a => by match a with | ⟨0, _⟩ => rfl
  rw [el, er, val_main_v52_apply, val_main_v51_apply, val_main_v48_apply, val_main_v47_apply,
    val_main_v46_apply, ed, val_main_v50_apply, val_main_v49_apply, eb, val_main_call2_v0_apply,
    val_main_call2_cst_apply]
  refine congrArg (· * x5 (ix2 k j)) ?_
  show max (_ * _ + _) (Ideal.ofBits .f32 0x00000000#32) = max _ 0
  rw [Ideal.ofBits_zero_f32]

end Hidden1

variable (m : (ℓ : Loc nD τ sig) → Buf (Elt Ideal) ℓ) (ρ : Dev nD → PrngReg) (c : Dev nD)

/-- The second launch's output array is the reference's first hidden layer, given the inverse node degrees and the
    aggregate the launch reads. -/
theorem stage1b (hd : W4 m ρ c (Proc.devRef .tc main_v12) = val_main_v12 (F := Ideal) (a1 m c))
    (h : W6 m ρ c (Proc.devRef .tc main_v48) = val_main_v45 (F := Ideal) (a0 m c) (a1 m c) (a3 m c)) :
    W7 m ρ c (Proc.devRef .tc main_v51) = val_main_v53 (F := Ideal) (a0 m c) (a1 m c) (a3 m c) (a4 m c) (a5 m c) := by
  -- the launch's four entry arrays
  have ex : (V6 m ρ c main_v48 : S50000x256.Idx → EReal) = val_main_v45 (F := Ideal) (a0 m c) (a1 m c) (a3 m c) := h
  have e12 : W5 m ρ c (Proc.devRef .tc main_v12) = val_main_v12 (F := Ideal) (a1 m c) :=
    (Carry.at5 m ρ c main_v12 (by decide)).trans hd
  have eb0 : W5 m ρ c (Proc.devRef .tc main_arg4) = a4 m c :=
    (Carry.at5 m ρ c main_arg4 (by decide)).trans ((Carry.args_at4 m ρ c main_arg4 (by decide)).trans rfl)
  have ed : (V6 m ρ c main_v49 : S50000x1.Idx → EReal) = shapeCast S50000x1 (val_main_v12 (F := Ideal) (a1 m c)) shapeCasts_S50000_S50000x1 := by
    rw [← e12]
    show StableHlo.after hostOps1 (W5 m ρ c) (Proc.devRef .tc main_v49) = _
    after_results_simp
    rfl
  have eb : (V6 m ρ c main_v50 : S1x256.Idx → EReal) = shapeCast S1x256 (a4 m c) shapeCasts_S256_S1x256 := by
    rw [← eb0]
    show StableHlo.after hostOps1 (W5 m ρ c) (Proc.devRef .tc main_v50) = _
    after_results_simp
    rfl
  have ew : (V6 m ρ c main_arg5 : S256x256.Idx → EReal) = a5 m c :=
    (Carry.at6 m ρ c main_arg5 (by decide)).trans ((Carry.args_at4 m ρ c main_arg5 (by decide)).trans rfl)
  -- the output array, entry by entry
  have key : ∀ (r : Fin 50000) (j : Fin 256),
      fat S50000x256 ((dat1 (F := Ideal) (V6 m ρ) c).arrAt 4 cfg1.N) (ix2 r j)
        = val_main_v53 (F := Ideal) (a0 m c) (a1 m c) (a3 m c) (a4 m c) (a5 m c) (ix2 r j) := by
    intro r j
    refine (Regions.arr1 (V6 m ρ) c r j).trans ?_
    rw [Hidden1.ref_entry]
    refine Finset.sum_congr rfl fun k _ => ?_
    have hx : fat S50000x256 (V6 m ρ c main_v48) (ix2 r k) = val_main_v45 (F := Ideal) (a0 m c) (a1 m c) (a3 m c) (ix2 r k) :=
      congrFun ex (ix2 r k)
    have hdv : fat S50000x1 (V6 m ρ c main_v49) (ix2 r 0) = val_main_v12 (F := Ideal) (a1 m c) (ix1 r) :=
      (congrFun ed (ix2 r 0)).trans (Cert.Lib.Keepdims.shapeCast_a_a1_apply _ _ r 0)
    have hb : fat S1x256 (V6 m ρ c main_v50) (ix2 0 k) = a4 m c (ix1 k) :=
      (congrFun eb (ix2 0 k)).trans (shapeCast_a_1a_apply _ _ 0 k)
    have hw : fat S256x256 (V6 m ρ c main_arg5) (ix2 k j) = a5 m c (ix2 k j) := congrFun ew (ix2 k j)
    rw [hx, hdv, hb, hw]
  refine (W7_arr m ρ c 4).trans ?_
  show ((dat1 (F := Ideal) (V6 m ρ) c).arrAt 4 cfg1.N : S50000x256.Idx → EReal) = _
  funext i
  obtain ⟨r, j, rfl⟩ : ∃ (r : Fin 50000) (j : Fin 256), i = ix2 r j := ⟨i 0, i 1, eq_ix2 i⟩
  exact key r j

end Cert.Bridge

end
-- ==== Proof.Region2.lean ====
/-
  Region 2 of the idealized kernel: the second hidden layer on all 50000 rows.

  The launch walks the 50000 rows of its input in 25 blocks of 2000 consecutive rows. At block `t` the body
  reads rows `2000 t … 2000 t + 1999` of the feature matrix and of the column of row scales, the one bias row and
  the whole weight matrix, and leaves in the output's block the activated rows times the weights. Entry `(p, q)`
  of that product depends on row `p` of the block only, which is row `2000 t + p` of the whole matrix; so what
  block `t` writes back is rows `2000 t … 2000 t + 1999` of ONE matrix, the product of all the activated rows
  with the weights (`layer`). The 25 blocks cover every row (row `r` lies in block `r / 2000`), hence after
  the last block the output array is that matrix.
-/
import proofs.«105314_j12644383719477_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal
import proofs.«105314_j12644383719477_2_alg».proof.Proof.LibPlainDot
import proofs.«105314_j12644383719477_2_alg».proof.Proof.LibKeepdims
import proofs.«105314_j12644383719477_2_alg».proof.Proof.DenseRows
import proofs.«105314_j12644383719477_2_alg».proof.Proof.ReadAt

noncomputable section

open scoped BigOperators

namespace Cert.KernelIdeal.Regions

open Cert.Arr Idealize.ShloMosaic Idealize.ShloMosaic.ValueIdx Idealize.ShloMosaic.TcCoe Idealize.SL.Sem Cert.KernelIdeal Cert.KernelIdeal.Gen
open Idealize.ShloMosaic.Pipeline (Dat)

namespace Hidden2

/-- The two zero offsets of a whole-buffer access, as the constant function. -/
theorem zeros : (![0, 0] : Fin 2 → Nat) = fun _ => 0 := funext fun a => by fin_cases a <;> rfl

/-- The body's arithmetic on its four loaded blocks: a change of float format is the identity on the extended
    reals, the scale column and the bias row are broadcast along the rows' entries, and the contraction into the
    zero accumulator is the plain sum over the shared axis. So the payload is the activated rows times the weights. -/
theorem pay_eq (x : Vec Ideal S2000x256 .f32) (d : Vec Ideal S2000x1 .f32) (b : Vec Ideal S1x256 .f32)
    (w : Vec Ideal S256x256 .f32) :
    (k2_pay1 (F := Ideal) x d b w : S2000x256.Idx → EReal) = Dense.rowsDot (Dense.actRows x d b) w := by
  funext y
  obtain ⟨p, q, rfl⟩ : ∃ (p : Fin 2000) (q : Fin 256), y = ix2 p q := ⟨y 0, y 1, eq_ix2 y⟩
  unfold k2_pay1
  refine (Cert.Lib.PlainDot.matmul_plain_zero_apply (M := 2000) (K := 256) (N := 256) none _ _ p q).trans ?_
  rw [Dense.rowsDot_apply]
  refine Finset.sum_congr rfl fun k _ => ?_
  rw [Dense.actRows_apply]
  have e0 : shapeCast S2000x256 x shapeCasts_S2000x256_S2000x256 (ix2 p k) = x (ix2 p k) := by
    rw [shapeCast_self]
  have e1 : broadcastTo S2000x256 (shapeCast S2000x1 d shapeCasts_S2000x1_S2000x1) broadcasts_S2000x1_S2000x256 (ix2 p k)
      = d (ix2 p (0 : Fin 1)) := by
    rw [shapeCast_self]; exact Cert.Lib.Keepdims.broadcastTo_a1_ab_apply d _ p k
  have e2 : broadcastTo S2000x256 (shapeCast S1x256 b shapeCasts_S1x256_S1x256) broadcasts_S1x256_S2000x256 (ix2 p k)
      = b (ix2 (0 : Fin 1) k) := by
    rw [shapeCast_self]; exact broadcastTo_1b_ab_apply b _ p k
  show max (shapeCast S2000x256 x shapeCasts_S2000x256_S2000x256 (ix2 p k)
        * broadcastTo S2000x256 (shapeCast S2000x1 d shapeCasts_S2000x1_S2000x1) broadcasts_S2000x1_S2000x256 (ix2 p k)
        + broadcastTo S2000x256 (shapeCast S1x256 b shapeCasts_S1x256_S1x256) broadcasts_S1x256_S2000x256 (ix2 p k))
      (Ideal.ofBits .f32 0x00000000#32) * w (ix2 k q) = _
  rw [e0, e1, e2, Ideal.ofBits_zero_f32]

variable (V : (c : Dev nD) → (b : Ref sig .tc) → Buf (Elt Ideal) ((c : Thread nD τ).loc b)) (c : Dev nD)

/-- Where each window's block sits at point `t` (decided over the 25 points): the feature rows, the scale column
    and the output move down one block of rows per point; the bias row and the weights are always block `(0, 0)`. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The feature block at point `t` is rows `2000 t …` of the feature matrix. -/
theorem rows_features (t : Fin cfg2.N) (y : S2000x256.Idx) (i : S50000x256.Idx)
    (h0 : (i 0).val = 2000 * t.val + (y 0).val) (h1 : (i 1).val = (y 1).val) :
    (iblk2 V c 0 t : S2000x256.Idx → EReal) y = (V c main_v77 : S50000x256.Idx → EReal) i := by
  obtain ⟨e0, e1, -⟩ := idx t
  unfold iblk2
  rw [View.read_apply]
  show (V c main_v77 : S50000x256.Idx → EReal) _ = (V c main_v77 : S50000x256.Idx → EReal) i
  refine congrArg (V c main_v77 : S50000x256.Idx → EReal) ?_
  funext a
  apply Fin.ext
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- The scale block at point `t` is rows `2000 t …` of the scale column. -/
theorem rows_scale (t : Fin cfg2.N) (y : S2000x1.Idx) (i : S50000x1.Idx)
    (h0 : (i 0).val = 2000 * t.val + (y 0).val) (h1 : (i 1).val = (y 1).val) :
    (iblk2 V c 1 t : S2000x1.Idx → EReal) y = (V c main_v78 : S50000x1.Idx → EReal) i := by
  obtain ⟨-, -, e0, e1, -⟩ := idx t
  unfold iblk2
  rw [View.read_apply]
  show (V c main_v78 : S50000x1.Idx → EReal) _ = (V c main_v78 : S50000x1.Idx → EReal) i
  refine congrArg (V c main_v78 : S50000x1.Idx → EReal) ?_
  funext a
  apply Fin.ext
  match a with
  | ⟨0, _⟩ => show win2_1.index t (0 : Fin 2) * 2000 + 1 * (y 0).val = (i 0).val; rw [e0, h0]; omega
  | ⟨1, _⟩ => show win2_1.index t (1 : Fin 2) * 1 + 1 * (y 1).val = (i 1).val; rw [e1, h1]; omega

/-- The bias block at every point is the whole bias row. -/
theorem row_bias (t : Fin cfg2.N) (y : S1x256.Idx) :
    (iblk2 V c 2 t : S1x256.Idx → EReal) y = (V c main_v79 : S1x256.Idx → EReal) y := by
  obtain ⟨-, -, -, -, e0, e1, -⟩ := idx t
  unfold iblk2
  rw [View.read_apply]
  show (V c main_v79 : S1x256.Idx → EReal) _ = (V c main_v79 : S1x256.Idx → EReal) y
  refine congrArg (V c main_v79 : S1x256.Idx → EReal) ?_
  funext a
  apply Fin.ext
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- The weight block at every point is the whole weight matrix. -/
theorem all_weights (t : Fin cfg2.N) (y : S256x256.Idx) :
    (iblk2 V c 3 t : S256x256.Idx → EReal) y = (V c main_arg7 : S256x256.Idx → EReal) y := by
  obtain ⟨-, -, -, -, -, -, e0, e1, -⟩ := idx t
  unfold iblk2
  rw [View.read_apply]
  show (V c main_arg7 : S256x256.Idx → EReal) _ = (V c main_arg7 : S256x256.Idx → EReal) y
  refine congrArg (V c main_arg7 : S256x256.Idx → EReal) ?_
  funext a
  apply Fin.ext
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- The whole output matrix: every activated row of the features times the weights. -/
def layer : S50000x256.Idx → EReal :=
  Dense.rowsDot (Dense.actRows (V c main_v77 : S50000x256.Idx → EReal) (V c main_v78 : S50000x1.Idx → EReal)
    (V c main_v79 : S1x256.Idx → EReal)) (V c main_arg7 : S256x256.Idx → EReal)

/-- The product computed from the blocks of point `t`, at an entry of the block, is the whole product at the
    entry `2000 t` rows further down. -/
theorem block_rows (t : Fin cfg2.N) (y : S2000x256.Idx) (i : S50000x256.Idx)
    (h0 : (i 0).val = 2000 * t.val + (y 0).val) (h1 : (i 1).val = (y 1).val) :
    Dense.rowsDot (Dense.actRows (iblk2 V c 0 t : S2000x256.Idx → EReal) (iblk2 V c 1 t : S2000x1.Idx → EReal)
        (iblk2 V c 2 t : S1x256.Idx → EReal)) (iblk2 V c 3 t : S256x256.Idx → EReal) y = layer V c i := by
  obtain ⟨p, q, rfl⟩ : ∃ (p : Fin 2000) (q : Fin 256), y = ix2 p q := ⟨y 0, y 1, eq_ix2 y⟩
  obtain ⟨r, j, rfl⟩ : ∃ (r : Fin 50000) (j : Fin 256), i = ix2 r j := ⟨i 0, i 1, eq_ix2 i⟩
  have hr : r.val = 2000 * t.val + p.val := h0
  obtain rfl : j = q := Fin.ext h1
  unfold layer
  refine Dense.rowsDot_rows _ _ _ _ p r j (fun k => ?_) (fun k => ?_)
  · refine Dense.actRows_rows _ _ _ _ _ _ p r k ?_ ?_ ?_
    · exact rows_features V c t (ix2 p k) (ix2 r k) hr rfl
    · exact rows_scale V c t (ix2 p (0 : Fin 1)) (ix2 r (0 : Fin 1)) hr rfl
    · exact row_bias V c t (ix2 (0 : Fin 1) k)
  · exact all_weights V c t (ix2 k j)

/-- What point `t` writes back is block `t` of the whole output matrix. -/
theorem flushed_eq (t : Fin cfg2.N) :
    (dat2 (F := Ideal) V c).flushed 4 t = ((cfg2.win 4).blk t).view.read (Elt Ideal) (layer V c) := by
  show (cfg2.win 4).cut (grid2.coords t) ((dat2 (F := Ideal) V c).after 4 t) = _
  rw [after2_4]
  unfold out2_4
  rw [View.canon_unit_zero zeros]
  simp only [View.ld_unit_zero (S := S2000x256) zeros, View.ld_unit_zero (S := S2000x1) zeros,
    View.ld_unit_zero (S := S1x256) zeros, View.ld_unit_zero (S := S256x256) zeros]
  rw [pay_eq]
  obtain ⟨-, -, -, -, -, -, -, -, e0, e1⟩ := idx t
  funext y
  refine block_rows V c t y (((cfg2.win 4).blk t).view.emb y) ?_ ?_
  · show win2_4.index t (0 : Fin 2) * 2000 + 1 * (y 0).val = 2000 * t.val + (y 0).val; rw [e0]; omega
  · show win2_4.index t (1 : Fin 2) * 256 + 1 * (y 1).val = (y 1).val; rw [e1]; omega

/-- An index of the output array is in point `t`'s block iff each coordinate is in the block's range on its axis. -/
theorem mem_blk (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v80).slice (win2_4.rect t)).set ↔ _
  rw [View.set_slice_whole, Rect.mem_set_unit]
  exact Iff.rfl

/-- Every entry of the output array is written back by some point: row `r` by point `r / 2000`. -/
theorem cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := idx t
  refine ⟨t, flush2_4 t, ?_⟩
  rw [mem_blk]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 256 ≤ (i 1).val ∧ (i 1).val < win2_4.index t (1 : Fin 2) * 256 + 256
    rw [e1]; omega

/-- After the 25 points the output array is the whole output matrix. -/
theorem final : (dat2 (F := Ideal) V c).arrAt 4 cfg2.N = layer V c :=
  (dat2 (F := Ideal) V c).arrAt_eq_of_cover 4 (layer V c) (fun t _ => flushed_eq V c t) cover

end Hidden2

variable (V : (c : Dev nD) → (b : Ref sig .tc) → Buf (Elt Ideal) ((c : Thread nD τ).loc b)) (c : Dev nD)

/-- Region 2: the same layer on the next arrays. -/
theorem arr2 (r : Fin 50000) (j : Fin 256) :
    fat S50000x256 ((dat2 (F := Ideal) V c).arrAt 4 cfg2.N) (ix2 r j)
      = ∑ k : Fin 256, max (fat S50000x256 (V c main_v77) (ix2 r k) * fat S50000x1 (V c main_v78) (ix2 r 0)
            + fat S1x256 (V c main_v79) (ix2 0 k)) 0 * fat S256x256 (V c main_arg7) (ix2 k j) :=
  (congrFun (Hidden2.final V c) (ix2 r j)).trans rfl

end Cert.KernelIdeal.Regions

end
-- ==== Proof.Stage2.lean ====
/-
  The second hidden layer of the kernel's program against the reference's.

  On the kernel's side the launch's output array is, entry `(r, j)`, the sum over `k` of the activated entry
  `max (x (r, k) * d (r, 0) + b (0, k)) 0` times the weight `w (k, j)`, where `x` is the aggregated features the
  stretch of host operations before the launch left, `d` the inverse node degrees recast as a column, `b` the
  layer's bias recast as a row and `w` the layer's weights. A vector recast as a column or as a row reads the
  vector's entry, the inverse degrees and the arguments are unchanged since the first launch's entry, and the
  aggregated features are the reference's by hypothesis. On the reference's side the same entry is the host's
  contraction of the rectified sum with the weights, whose factors are a product with the inverse degrees
  broadcast along each row and a sum with the bias broadcast along each column; on the extended reals the
  contraction is the same plain sum over `k`. So the two arrays agree entry by entry.
-/
import proofs.«105314_j12644383719477_2_alg».proof.Proof.Gen.KernelIdeal.Frame
import proofs.«105314_j12644383719477_2_alg».proof.Proof.RefRead
import proofs.«105314_j12644383719477_2_alg».proof.Proof.Args
import proofs.«105314_j12644383719477_2_alg».proof.Proof.Carry
import proofs.«105314_j12644383719477_2_alg».proof.Proof.ReadAt
import proofs.«105314_j12644383719477_2_alg».proof.Proof.LibKeepdims
import proofs.«105314_j12644383719477_2_alg».proof.Proof.Region2
import Idealize.ShloMosaic.Lib.ValueIdx
import Idealize.ShloMosaic.Lib.ValueLayout
import Idealize.ShloMosaic.PureOps.Ideal

set_option maxRecDepth 16384

noncomputable section

open scoped BigOperators

namespace Cert.Bridge

open Cert.Arr Cert.KernelIdeal Cert.KernelIdeal.Gen Cert.ReferenceIdeal.ReadP
open Idealize.ShloMosaic Idealize.ShloMosaic.ValueIdx Idealize.ShloMosaic.TcCoe Idealize.SL.Sem

namespace Hidden2

/-- The reference's layer at an entry: the plain sum over `k` of the rectified, scaled and shifted aggregate times
    the weight. -/
theorem ref_entry (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (r : Fin 50000) (j : Fin 256) :
    val_main_v84 (F := Ideal) x0 x1 x3 x4 x5 x6 x7 (ix2 r j)
      = ∑ k : Fin 256, max (val_main_v76 (F := Ideal) x0 x1 x3 x4 x5 (ix2 r k) * val_main_v12 (F := Ideal) x1 (ix1 r)
          + x6 (ix1 k)) 0 * x7 (ix2 k j) := by
  rw [val_main_v84_apply]
  refine Finset.sum_congr rfl fun k _ => ?_
  have el : lidx_main_v84 (ix2 r j) k = ix2 r k := funext fun a => by match a with | ⟨0, _⟩ => rfl | ⟨1, _⟩ => rfl
  have er : ridx_main_v84 (ix2 r j) k = ix2 k j := funext fun a => by match a with | ⟨0, _⟩ => rfl | ⟨1, _⟩ => rfl
  have ed : idx_main_v77 (idx_main_v78 (ix2 r k)) = ix1 r := funext fun a => by match a with | ⟨0, _⟩ => rfl
  have eb : idx_main_v80 (idx_main_v81 (ix2 r k)) = ix1 k := funext fun a => by match a with | ⟨0, _⟩ => rfl
  rw [el, er, val_main_v83_apply, val_main_v82_apply, val_main_v79_apply, val_main_v78_apply,
    val_main_v77_apply, ed, val_main_v81_apply, val_main_v80_apply, eb, val_main_call3_v0_apply,
    val_main_call3_cst_apply]
  refine congrArg (· * x7 (ix2 k j)) ?_
  show max (_ * _ + _) (Ideal.ofBits .f32 0x00000000#32) = max _ 0
  rw [Ideal.ofBits_zero_f32]

end Hidden2

variable (m : (ℓ : Loc nD τ sig) → Buf (Elt Ideal) ℓ) (ρ : Dev nD → PrngReg) (c : Dev nD)

/-- The third launch's output array is the reference's second hidden layer, given the inverse node degrees and the
    aggregate the launch reads. -/
theorem stage2b (hd : W4 m ρ c (Proc.devRef .tc main_v12) = val_main_v12 (F := Ideal) (a1 m c))
    (h : W8 m ρ c (Proc.devRef .tc main_v77) = val_main_v76 (F := Ideal) (a0 m c) (a1 m c) (a3 m c) (a4 m c) (a5 m c)) :
    W9 m ρ c (Proc.devRef .tc main_v80) = val_main_v84 (F := Ideal) (a0 m c) (a1 m c) (a3 m c) (a4 m c) (a5 m c) (a6 m c) (a7 m c) := by
  -- the launch's four entry arrays
  have ex : (V8 m ρ c main_v77 : S50000x256.Idx → EReal) = val_main_v76 (F := Ideal) (a0 m c) (a1 m c) (a3 m c) (a4 m c) (a5 m c) := h
  have e12 : W7 m ρ c (Proc.devRef .tc main_v12) = val_main_v12 (F := Ideal) (a1 m c) :=
    (Carry.at7 m ρ c main_v12 (by decide)).trans hd
  have eb0 : W7 m ρ c (Proc.devRef .tc main_arg6) = a6 m c :=
    (Carry.at7 m ρ c main_arg6 (by decide)).trans ((Carry.args_at4 m ρ c main_arg6 (by decide)).trans rfl)
  have ed : (V8 m ρ c main_v78 : S50000x1.Idx → EReal) = shapeCast S50000x1 (val_main_v12 (F := Ideal) (a1 m c)) shapeCasts_S50000_S50000x1 := by
    rw [← e12]
    show StableHlo.after hostOps2 (W7 m ρ c) (Proc.devRef .tc main_v78) = _
    after_results_simp
    rfl
  have eb : (V8 m ρ c main_v79 : S1x256.Idx → EReal) = shapeCast S1x256 (a6 m c) shapeCasts_S256_S1x256 := by
    rw [← eb0]
    show StableHlo.after hostOps2 (W7 m ρ c) (Proc.devRef .tc main_v79) = _
    after_results_simp
    rfl
  have ew : (V8 m ρ c main_arg7 : S256x256.Idx → EReal) = a7 m c :=
    (Carry.at8 m ρ c main_arg7 (by decide)).trans ((Carry.args_at4 m ρ c main_arg7 (by decide)).trans rfl)
  -- the output array, entry by entry
  have key : ∀ (r : Fin 50000) (j : Fin 256),
      fat S50000x256 ((dat2 (F := Ideal) (V8 m ρ) c).arrAt 4 cfg2.N) (ix2 r j)
        = val_main_v84 (F := Ideal) (a0 m c) (a1 m c) (a3 m c) (a4 m c) (a5 m c) (a6 m c) (a7 m c) (ix2 r j) := by
    intro r j
    refine (Regions.arr2 (V8 m ρ) c r j).trans ?_
    rw [Hidden2.ref_entry]
    refine Finset.sum_congr rfl fun k _ => ?_
    have hx : fat S50000x256 (V8 m ρ c main_v77) (ix2 r k) = val_main_v76 (F := Ideal) (a0 m c) (a1 m c) (a3 m c) (a4 m c) (a5 m c) (ix2 r k) :=
      congrFun ex (ix2 r k)
    have hdv : fat S50000x1 (V8 m ρ c main_v78) (ix2 r 0) = val_main_v12 (F := Ideal) (a1 m c) (ix1 r) :=
      (congrFun ed (ix2 r 0)).trans (Cert.Lib.Keepdims.shapeCast_a_a1_apply _ _ r 0)
    have hb : fat S1x256 (V8 m ρ c main_v79) (ix2 0 k) = a6 m c (ix1 k) :=
      (congrFun eb (ix2 0 k)).trans (shapeCast_a_1a_apply _ _ 0 k)
    have hw : fat S256x256 (V8 m ρ c main_arg7) (ix2 k j) = a7 m c (ix2 k j) := congrFun ew (ix2 k j)
    rw [hx, hdv, hb, hw]
  refine (W9_arr m ρ c 4).trans ?_
  show ((dat2 (F := Ideal) (V8 m ρ) c).arrAt 4 cfg2.N : S50000x256.Idx → EReal) = _
  funext i
  obtain ⟨r, j, rfl⟩ : ∃ (r : Fin 50000) (j : Fin 256), i = ix2 r j := ⟨i 0, i 1, eq_ix2 i⟩
  exact key r j

end Cert.Bridge

end
-- ==== Proof.Sums.lean ====
/-
  Finite sums on the extended reals used by the pooling step.

  A sum of terms each multiplied by an indicator (one or zero) is the sum over the indices where the
  indicator is one (`sum_ite_mul`; `ite_mul_eq` is the single term, with the factors renamed). A sum
  over the first `B * (m + 1)` natural numbers is the sum over the first `B * m` followed by the block of
  `B` terms starting at `B * m` (`sum_range_mul_succ`): the bookkeeping behind a total accumulated one
  block of rows at a time. Only the commutative-monoid laws of the addition are used, together with
  `1 * a = a` and `0 * a = 0`, which hold for every extended real, infinite ones included.
-/
import Idealize.ShloMosaic.PureOps.Ideal
import Idealize.ShloMosaic.Lib.ValueIdx

noncomputable section

open scoped BigOperators

namespace Cert.Pool

open Idealize.ShloMosaic

/-- An indicator times a term is the term where the indicator holds and zero elsewhere. -/
theorem ite_mul (p : Prop) [Decidable p] (a : EReal) : (if p then (1 : EReal) else 0) * a = if p then a else 0 := by
  by_cases h : p <;> simp [h]

/-- A sum of indicator-weighted terms keeps exactly the terms whose indicator holds. -/
theorem sum_ite_mul {ι : Type*} [Fintype ι] (p : ι → Prop) [DecidablePred p] (f : ι → EReal) :
    (∑ n, (if p n then (1 : EReal) else 0) * f n) = ∑ n, if p n then f n else 0 :=
  Finset.sum_congr rfl fun n _ => ite_mul (p n) (f n)

/-- One row's indicator-weighted activation, with each factor replaced by an equal one: the block's
    entries by the entries of the whole arrays they were read from. -/
theorem ite_mul_eq (w w' : BitVec 32) (a a' b b' d d' : EReal) (g : Int)
    (hw : w = w') (ha : a = a') (hb : b = b') (hd : d = d') :
    (if w.toInt = g then (1 : EReal) else 0) * max (a * b + d) 0 = if w'.toInt = g then max (a' * b' + d') 0 else 0 := by
  subst hw ha hb hd
  exact ite_mul _ _

/-- The first `B * (m + 1)` terms are the first `B * m` and then the block of `B` terms starting at `B * m`. -/
theorem sum_range_mul_succ {β : Type*} [AddCommMonoid β] (f : ℕ → β) (B m : ℕ) :
    ∑ r ∈ Finset.range (B * (m + 1)), f r = ∑ r ∈ Finset.range (B * m), f r + ∑ k : Fin B, f (B * m + k.val) := by
  rw [Nat.mul_succ, Finset.sum_range_add]
  exact congrArg _ (Finset.sum_range fun x => f (B * m + x))

/-- A sum over the first `N` natural numbers of a function that is `F` below `N` is the sum of `F`. -/
theorem sum_range_dite {β : Type*} [AddCommMonoid β] (N : ℕ) (F : Fin N → β) :
    ∑ r ∈ Finset.range N, (if h : r < N then F ⟨r, h⟩ else 0) = ∑ n : Fin N, F n := by
  rw [Finset.sum_range]
  exact Finset.sum_congr rfl fun n _ => dif_pos n.isLt

end Cert.Pool

end
-- ==== Proof.PoolPayload.lean ====
/-
  The pooling step's arithmetic at one entry of the [50, 256] block of per-graph sums.

  The step receives a block of 2000 node rows: their features `x0` (2000 × 256), the inverse degree
  of each node `x1` (a column), the bias `x2` (a row), and the graph number of each node `x3` (a
  column of 32-bit words). It forms the activation `max (x0 (n, j) * x1 (n, 0) + x2 (0, j)) 0` of each
  row, and the 2000 × 50 membership matrix whose entry `(n, g)` is one when node `n` belongs to graph
  `g` and zero otherwise; the product of the transposed membership matrix with the activations (both
  operands contracted over their rows) is added to what the block held before. Over the extended
  reals a change of float format is the identity, so at entry `(g, j)` the block receives the sum,
  over the 2000 rows, of the membership indicator times the activation (`pay2_apply`).
-/
import proofs.«105314_j12644383719477_2_alg».proof.Proof.Gen.KernelIdeal.Skeleton
import proofs.«105314_j12644383719477_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pool

open Idealize.ShloMosaic Idealize.ShloMosaic.ValueIdx Cert.KernelIdeal Cert.KernelIdeal.Gen

/-! ## Graph numbers as words -/

/-- A graph number below 50, written as a 32-bit word, reads back as itself when the word is read signed. -/
theorem toInt_ofNat_graph (g : Fin 50) : (BitVec.ofNat 32 g.val).toInt = (g.val : Int) := by
  have hg := g.isLt
  rw [BitVec.toInt_eq_toNat_cond, BitVec.toNat_ofNat, Nat.mod_eq_of_lt (by omega)]
  rw [if_pos (by omega)]

/-- A word equals the word of graph number `g` exactly when its signed value is `g`. -/
theorem eq_ofNat_graph_iff (w : BitVec 32) (g : Fin 50) : w = BitVec.ofNat 32 g.val ↔ w.toInt = (g.val : Int) :=
  ⟨fun h => h ▸ toInt_ofNat_graph g, fun h => BitVec.eq_of_toInt_eq (h.trans (toInt_ofNat_graph g).symm)⟩

/-- The membership bit, widened to a word and converted to a number: one when the node's graph word
    is `g`, read signed, and zero otherwise. -/
theorem member_word (w : BitVec 32) (g : Fin 50) :
    (((((IntOp.cmpi .eq w (BitVec.ofNat 32 g.val)).setWidth 32).toInt : ℝ)) : EReal)
      = if w.toInt = (g.val : Int) then 1 else 0 := by
  by_cases h : w = BitVec.ofNat 32 g.val
  · rw [if_pos ((eq_ofNat_graph_iff w g).mp h), h]
    have e : IntOp.cmpi .eq (BitVec.ofNat 32 g.val) (BitVec.ofNat 32 g.val) = 1#1 := by
      show BitVec.ofBool (BitVec.ofNat 32 g.val == BitVec.ofNat 32 g.val) = 1#1
      rw [beq_self_eq_true]; rfl
    rw [e]
    have : ((1#1 : BitVec 1).setWidth 32).toInt = 1 := by decide
    rw [this]; simp
  · rw [if_neg (fun h' => h ((eq_ofNat_graph_iff w g).mpr h'))]
    have e : IntOp.cmpi .eq w (BitVec.ofNat 32 g.val) = 0#1 := by
      show BitVec.ofBool (w == BitVec.ofNat 32 g.val) = 0#1
      rw [beq_eq_false_iff_ne.mpr h]; rfl
    rw [e]
    have : ((0#1 : BitVec 1).setWidth 32).toInt = 0 := by decide
    rw [this]; simp

/-! ## The product contracting the rows of both operands -/

/-- The left operand's index at output `(g, j)` and row `k` is `(k, g)`. -/
theorem lhsIdx_rows (g : Fin 50) (j : Fin 256) (k : Fin 2000) :
    dot_S2000x50_S2000x256_S50x256_0_0_1_1_n_n.lhsIdx (ix2 g j)
        ((contrEquiv1 dot_S2000x50_S2000x256_S50x256_0_0_1_1_n_n 2000 rfl rfl).symm k) = ix2 k g := by
  have hk := contrEquiv1_symm_val dot_S2000x50_S2000x256_S50x256_0_0_1_1_n_n 2000 rfl rfl k
  funext a
  apply Fin.ext
  match a with
  | ⟨0, _⟩ => exact (dot_S2000x50_S2000x256_S50x256_0_0_1_1_n_n.lhsIdx_val_of_single rfl (ix2 g j) _).trans hk
  | ⟨1, _⟩ => rfl

/-- The right operand's index at output `(g, j)` and row `k` is `(k, j)`. -/
theorem rhsIdx_rows (g : Fin 50) (j : Fin 256) (k : Fin 2000) :
    dot_S2000x50_S2000x256_S50x256_0_0_1_1_n_n.rhsIdx (ix2 g j)
        ((contrEquiv1 dot_S2000x50_S2000x256_S50x256_0_0_1_1_n_n 2000 rfl rfl).symm k) = ix2 k j := by
  have hk := contrEquiv1_symm_val dot_S2000x50_S2000x256_S50x256_0_0_1_1_n_n 2000 rfl rfl k
  funext a
  apply Fin.ext
  match a with
  | ⟨0, _⟩ => exact (dot_S2000x50_S2000x256_S50x256_0_0_1_1_n_n.rhsIdx_val_of_single rfl (ix2 g j) _).trans hk
  | ⟨1, _⟩ => rfl

/-- Over the extended reals the product of `A` (2000 × 50) and `B` (2000 × 256) contracting the rows
    of both, into the zero block, is at `(g, j)` the sum over the rows `k` of `A (k, g) * B (k, j)`. -/
theorem matmul_rows_zero_apply {φ₁ φ₂ : FTy} (prec : Option ContractPrecision)
    (A : FVec Ideal S2000x50 φ₁) (B : FVec Ideal S2000x256 φ₂) (g : Fin 50) (j : Fin 256) :
    FloatOps.matmul dot_S2000x50_S2000x256_S50x256_0_0_1_1_n_n prec A B (constant S50x256 .f32 0x00000000#32) (ix2 g j)
      = ∑ k : Fin 2000, A (ix2 k g) * B (ix2 k j) := by
  refine (Ideal.matmul_constant_zero_apply dot_S2000x50_S2000x256_S50x256_0_0_1_1_n_n prec A B (ix2 g j)).trans ?_
  rw [← Equiv.sum_comp (contrEquiv1 dot_S2000x50_S2000x256_S50x256_0_0_1_1_n_n 2000 rfl rfl).symm]
  refine Finset.sum_congr rfl fun k _ => ?_
  rw [lhsIdx_rows, rhsIdx_rows]

/-! ## The two operands at an entry -/

/-- The membership matrix at `(n, g)`: one when node `n`'s graph word is `g`, read signed, else zero. -/
theorem member_apply (x3 : Vec Ideal S2000x1 .i32) (n : Fin 2000) (g : Fin 50) :
    (truncf .bf16 (sitofp (F := Ideal) .f32 (extui 32 (cmpi .eq
        (broadcastTo S2000x50 (shapeCast S2000x1 x3 shapeCasts_S2000x1_S2000x1) broadcasts_S2000x1_S2000x50)
        (iota .tc S2000x50 32 [1] iota_S2000x50_d1_w32)) natLt_1_32)) bitsLt_bf16_f32 : FVec Ideal S2000x50 .bf16) (ix2 n g)
      = if (x3 (ix2 n 0)).toInt = (g.val : Int) then 1 else 0 := by
  have hb : broadcastTo S2000x50 (shapeCast S2000x1 x3 shapeCasts_S2000x1_S2000x1) broadcasts_S2000x1_S2000x50 (ix2 n g)
      = x3 (ix2 n 0) := by
    rw [shapeCast_self]
    exact Cert.Lib.Keepdims.broadcastTo_a1_ab_apply x3 broadcasts_S2000x1_S2000x50 n g
  have hi : iota .tc S2000x50 32 [1] iota_S2000x50_d1_w32 (ix2 n g) = BitVec.ofNat 32 g.val :=
    iota_single_apply .tc S2000x50 32 1 iota_S2000x50_d1_w32 (ix2 n g)
  show ((((IntOp.cmpi .eq
      (broadcastTo S2000x50 (shapeCast S2000x1 x3 shapeCasts_S2000x1_S2000x1) broadcasts_S2000x1_S2000x50 (ix2 n g))
      (iota .tc S2000x50 32 [1] iota_S2000x50_d1_w32 (ix2 n g))).setWidth 32).toInt : ℝ) : EReal) = _
  rw [hb, hi]
  exact member_word (x3 (ix2 n 0)) g

/-- The activation at `(n, j)`: the feature scaled by the node's inverse degree, plus the bias, clamped at zero. -/
theorem act_apply (x0 : Vec Ideal S2000x256 .f32) (x1 : Vec Ideal S2000x1 .f32) (x2 : Vec Ideal S1x256 .f32)
    (n : Fin 2000) (j : Fin 256) :
    (truncf .bf16 (maximumf (addf (mulf (shapeCast S2000x256 x0 shapeCasts_S2000x256_S2000x256)
        (broadcastTo S2000x256 (shapeCast S2000x1 x1 shapeCasts_S2000x1_S2000x1) broadcasts_S2000x1_S2000x256))
        (broadcastTo S2000x256 (shapeCast S1x256 x2 shapeCasts_S1x256_S1x256) broadcasts_S1x256_S2000x256))
        (broadcast S2000x256 (Scalar.ofBits (F := Ideal) .f32 0x00000000#32))) bitsLt_bf16_f32 : FVec Ideal S2000x256 .bf16) (ix2 n j)
      = max (x0 (ix2 n j) * x1 (ix2 n 0) + x2 (ix2 0 j)) 0 := by
  have h1 : broadcastTo S2000x256 (shapeCast S2000x1 x1 shapeCasts_S2000x1_S2000x1) broadcasts_S2000x1_S2000x256 (ix2 n j)
      = x1 (ix2 n 0) := by
    rw [shapeCast_self]
    exact Cert.Lib.Keepdims.broadcastTo_a1_ab_apply x1 broadcasts_S2000x1_S2000x256 n j
  have h2 : broadcastTo S2000x256 (shapeCast S1x256 x2 shapeCasts_S1x256_S1x256) broadcasts_S1x256_S2000x256 (ix2 n j)
      = x2 (ix2 0 j) := by
    rw [shapeCast_self]
    exact broadcastTo_1b_ab_apply x2 broadcasts_S1x256_S2000x256 n j
  show max (shapeCast S2000x256 x0 shapeCasts_S2000x256_S2000x256 (ix2 n j)
      * broadcastTo S2000x256 (shapeCast S2000x1 x1 shapeCasts_S2000x1_S2000x1) broadcasts_S2000x1_S2000x256 (ix2 n j)
      + broadcastTo S2000x256 (shapeCast S1x256 x2 shapeCasts_S1x256_S1x256) broadcasts_S1x256_S2000x256 (ix2 n j))
      (Ideal.ofBits .f32 0x00000000#32) = _
  rw [h1, h2, shapeCast_self, Ideal.ofBits_zero_f32]

/-! ## The block after the step -/

/-- What the step leaves at entry `(g, j)` of the block that held `xo`: `xo (g, j)` plus, over the 2000 rows,
    the membership indicator of row `n` in graph `g` times the row's activation at lane `j`. -/
theorem pay2_apply (x0 : Vec Ideal S2000x256 .f32) (x1 : Vec Ideal S2000x1 .f32) (x2 : Vec Ideal S1x256 .f32)
    (x3 : Vec Ideal S2000x1 .i32) (xo : Vec Ideal S50x256 .f32) (g : Fin 50) (j : Fin 256) :
    (k3_pay2 x0 x1 x2 x3 xo : S50x256.Idx → EReal) (ix2 g j)
      = xo (ix2 g j) + ∑ n : Fin 2000, (if (x3 (ix2 n 0)).toInt = (g.val : Int) then (1 : EReal) else 0)
          * max (x0 (ix2 n j) * x1 (ix2 n 0) + x2 (ix2 0 j)) 0 := by
  unfold k3_pay2
  dsimp only
  refine (addf_apply _ _ (ix2 g j)).trans ?_
  rw [shapeCast_self]
  refine congrArg (xo (ix2 g j) + ·) ?_
  refine (matmul_rows_zero_apply none _ _ g j).trans ?_
  refine Finset.sum_congr rfl fun n _ => ?_
  rw [member_apply, act_apply]

/-- The zero block the first step starts from is zero at every entry. -/
theorem pay1_apply (i : S50x256.Idx) : (k3_pay1 (F := Ideal) : S50x256.Idx → EReal) i = 0 :=
  Ideal.ofBits_zero_f32

end Cert.KernelIdeal.Pool

end
-- ==== Proof.PoolPieces.lean ====
/-
  What one pooling step leaves in the [50, 256] block of per-graph sums, as a function of the blocks it
  was given. At the first step the block is first set to zero and the step's contribution is added to
  that zero block; at every later step the contribution is added to what the block held before. In both
  cases the block ends as the step's arithmetic `k3_pay2` applied to the four input blocks and to the
  block's previous contents (the zero block `k3_pay1` at the first step).
-/
import proofs.«105314_j12644383719477_2_alg».proof.Proof.Gen.KernelIdeal.Frame
import Idealize.ShloMosaic.Lib.Pipeline.Value
import Idealize.ShloMosaic.Lib.Tactic

noncomputable section

namespace Cert.KernelIdeal.Pool

open Idealize.ShloMosaic Idealize.ShloMosaic.TcCoe Idealize.SL.Sem Cert.KernelIdeal Cert.KernelIdeal.Gen
open Idealize.ShloMosaic.Tactic

variable {F : FTy → Type} [FloatOps F]

/-- The offsets of a whole-block access are zero on both axes. -/
theorem zero_offsets : (![0, 0] : Fin 2 → Nat) = fun _ => 0 := funext fun a => by fin_cases a <;> rfl

/-- A later step: the block that held `xo` ends as the step's arithmetic on the input blocks and `xo`. -/
theorem out_later (c : Dev nD) (i : grid3.Coords) (a1 : Memref sig .tc .vmem S2000x256 .f32) (h1 : a1.IsWhole)
    (a2 : Memref sig .tc .vmem S2000x1 .f32) (h2 : a2.IsWhole) (a3 : Memref sig .tc .vmem S1x256 .f32) (h3 : a3.IsWhole)
    (a4 : Memref sig .tc .vmem S2000x1 .i32) (h4 : a4.IsWhole) (a5 : Memref sig .tc .vmem S50x256 .f32) (h5 : a5.IsWhole)
    (hc : ¬cond3_0 i) (x0 : Vec F S2000x256 .f32) (x1 : Vec F S2000x1 .f32) (x2 : Vec F S1x256 .f32)
    (x3 : Vec F S2000x1 .i32) (xo : Vec F S50x256 .f32) :
    out3_B_4 c i a1 h1 a2 h2 a3 h3 a4 h4 a5 h5 hc x0 x1 x2 x3 xo = k3_pay2 x0 x1 x2 x3 xo := by
  unfold out3_B_4
  rw [View.read_writes_eq_canon _ _ _ (cover3_B_4 c i a1 h1 a2 h2 a3 h3 a4 h4 a5 h5 hc x0 x1 x2 x3 xo)]
  unfold kernelRun3_B
  dsimp only
  rw [View.canon_unit_zero zero_offsets]
  simp only [View.readAt_eq_ld, h1.read_unread, h2.read_unread, h3.read_unread, h4.read_unread, h5.read_unread,
    View.ld_unit_zero (S := S2000x256) zero_offsets, View.ld_unit_zero (S := S2000x1) zero_offsets,
    View.ld_unit_zero (S := S1x256) zero_offsets, View.ld_unit_zero (S := S50x256) zero_offsets]

/-- The first step: the block is zeroed, read back, and ends as the step's arithmetic on the input
    blocks and the zero block. -/
theorem out_first (c : Dev nD) (i : grid3.Coords) (a1 : Memref sig .tc .vmem S2000x256 .f32) (h1 : a1.IsWhole)
    (a2 : Memref sig .tc .vmem S2000x1 .f32) (h2 : a2.IsWhole) (a3 : Memref sig .tc .vmem S1x256 .f32) (h3 : a3.IsWhole)
    (a4 : Memref sig .tc .vmem S2000x1 .i32) (h4 : a4.IsWhole) (a5 : Memref sig .tc .vmem S50x256 .f32) (h5 : a5.IsWhole)
    (hc : cond3_0 i) (x0 : Vec F S2000x256 .f32) (x1 : Vec F S2000x1 .f32) (x2 : Vec F S1x256 .f32)
    (x3 : Vec F S2000x1 .i32) :
    out3_A_4 c i a1 h1 a2 h2 a3 h3 a4 h4 a5 h5 hc x0 x1 x2 x3 = k3_pay2 x0 x1 x2 x3 (k3_pay1 (F := F)) := by
  unfold out3_A_4
  rw [View.read_writes_eq_canon _ _ _ (cover3_A_4 c i a1 h1 a2 h2 a3 h3 a4 h4 a5 h5 hc x0 x1 x2 x3)]
  unfold kernelRun3_A
  dsimp only
  sl_unfold_words
  rw [View.canon_cons_unit_zero (S := S50x256) zero_offsets, View.readCov_unit_zero (S := S50x256) _ zero_offsets]
  simp only [View.readAt_eq_ld, h1.read_unread, h2.read_unread, h3.read_unread, h4.read_unread,
    View.ld_unit_zero (S := S2000x256) zero_offsets, View.ld_unit_zero (S := S2000x1) zero_offsets,
    View.ld_unit_zero (S := S1x256) zero_offsets]

end Cert.KernelIdeal.Pool

end
-- ==== Proof.Region3.lean ====
/-
  Region 3: the pooling launch. Its 25 steps walk the 50000 node rows in blocks of 2000; every step adds,
  into the one [50, 256] block of per-graph sums, the contribution of its 2000 rows: at entry `(g, j)` the
  sum, over the rows of the block that belong to graph `g`, of the row's activation at lane `j`. The block
  is zeroed at the first step and written back to the result array after the last, so the result array
  holds at `(g, j)` the sum over all 50000 rows `n` of graph `g` of the activation
  `max (h (n, j) * dinv (n, 0) + bias (0, j)) 0`.

  The proof follows the block through the steps. Row `y` of the block of step `t` is row `2000 * t + y` of
  the arrays (`feat_blk`, `dinv_blk`, `bias_blk`, `graph_blk`); after step `t` the block holds the sum
  of the contributions of the first `2000 * (t + 1)` rows (`block_after`, by induction on the step, the
  addition on the extended reals being associative); the last step's block is the whole result array.
-/
import proofs.«105314_j12644383719477_2_alg».proof.Proof.Gen.KernelIdeal.Frame
import proofs.«105314_j12644383719477_2_alg».proof.Proof.ReadAt
import proofs.«105314_j12644383719477_2_alg».proof.Proof.Sums
import proofs.«105314_j12644383719477_2_alg».proof.Proof.PoolPayload
import proofs.«105314_j12644383719477_2_alg».proof.Proof.PoolPieces
import Idealize.ShloMosaic.Lib.Pipeline.Value
import Idealize.ShloMosaic.Lib.ValueIdx
import Idealize.ShloMosaic.PureOps.Ideal

noncomputable section

open scoped BigOperators

namespace Cert.KernelIdeal.Regions

open Cert.Arr Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-! ## Where the blocks sit -/

/-- The block indices of the five windows at step `t`: the three row-blocked inputs are at block `t` of
    their rows, the bias row and the block of sums never move. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 :=
  (by decide +kernel : ∀ t : Fin grid3.N, _)

/-- A step is one of 25. -/
theorem step_lt (t : Fin cfg3.N) : t.val < 25 := lt_of_lt_of_eq t.isLt (show cfg3.N = 25 from N_3)

/-- Row `y` of the feature block of step `t` is row `2000 * t + y` of the feature array. -/
theorem feat_blk (t : Fin cfg3.N) (y : Fin 2000) (j : Fin 256) (hr : 2000 * t.val + y.val < 50000) :
    iblk3 V c 0 t (ix2 y j) = fat S50000x256 (V c main_v106) (ix2 ⟨2000 * t.val + y.val, hr⟩ j) := by
  obtain ⟨e0, e1, -⟩ := block_indices t
  unfold iblk3
  rw [View.read_apply]
  show V c main_v106 (((cfg3.win 0).blk t).view.emb (ix2 y j)) = V c main_v106 (ix2 ⟨2000 * t.val + y.val, hr⟩ j)
  refine congrArg (V c main_v106) (funext fun a => Fin.ext ?_)
  match a with
  | ⟨0, _⟩ => show win3_0.index t (0 : Fin 2) * 2000 + 1 * y.val = 2000 * t.val + y.val; omega
  | ⟨1, _⟩ => show win3_0.index t (1 : Fin 2) * 256 + 1 * j.val = j.val; omega

/-- Row `y` of the inverse-degree block of step `t` is row `2000 * t + y` of the inverse-degree column. -/
theorem dinv_blk (t : Fin cfg3.N) (y : Fin 2000) (hr : 2000 * t.val + y.val < 50000) :
    iblk3 V c 1 t (ix2 y (0 : Fin 1)) = fat S50000x1 (V c main_v107) (ix2 ⟨2000 * t.val + y.val, hr⟩ (0 : Fin 1)) := by
  obtain ⟨-, -, e0, e1, -⟩ := block_indices t
  unfold iblk3
  rw [View.read_apply]
  show V c main_v107 (((cfg3.win 1).blk t).view.emb (ix2 y (0 : Fin 1))) = V c main_v107 (ix2 ⟨2000 * t.val + y.val, hr⟩ (0 : Fin 1))
  refine congrArg (V c main_v107) (funext fun a => Fin.ext ?_)
  match a with
  | ⟨0, _⟩ => show win3_1.index t (0 : Fin 2) * 2000 + 1 * y.val = 2000 * t.val + y.val; omega
  | ⟨1, _⟩ => show win3_1.index t (1 : Fin 2) * 1 + 1 * 0 = 0; omega

/-- The bias block of every step is the bias row. -/
theorem bias_blk (t : Fin cfg3.N) (j : Fin 256) :
    iblk3 V c 2 t (ix2 (0 : Fin 1) j) = fat S1x256 (V c main_v108) (ix2 (0 : Fin 1) j) := by
  obtain ⟨-, -, -, -, e0, e1, -⟩ := block_indices t
  unfold iblk3
  rw [View.read_apply]
  show V c main_v108 (((cfg3.win 2).blk t).view.emb (ix2 (0 : Fin 1) j)) = V c main_v108 (ix2 (0 : Fin 1) j)
  refine congrArg (V c main_v108) (funext fun a => Fin.ext ?_)
  match a with
  | ⟨0, _⟩ => show win3_2.index t (0 : Fin 2) * 1 + 1 * 0 = 0; omega
  | ⟨1, _⟩ => show win3_2.index t (1 : Fin 2) * 256 + 1 * j.val = j.val; omega

/-- Row `y` of the graph-number block of step `t` is row `2000 * t + y` of the graph-number column. -/
theorem graph_blk (t : Fin cfg3.N) (y : Fin 2000) (hr : 2000 * t.val + y.val < 50000) :
    iblk3 V c 3 t (ix2 y (0 : Fin 1)) = iat S50000x1 (V c main_v109) (ix2 ⟨2000 * t.val + y.val, hr⟩ (0 : Fin 1)) := by
  obtain ⟨-, -, -, -, -, -, e0, e1, -⟩ := block_indices t
  unfold iblk3
  rw [View.read_apply]
  show V c main_v109 (((cfg3.win 3).blk t).view.emb (ix2 y (0 : Fin 1))) = V c main_v109 (ix2 ⟨2000 * t.val + y.val, hr⟩ (0 : Fin 1))
  refine congrArg (V c main_v109) (funext fun a => Fin.ext ?_)
  match a with
  | ⟨0, _⟩ => show win3_3.index t (0 : Fin 2) * 2000 + 1 * y.val = 2000 * t.val + y.val; omega
  | ⟨1, _⟩ => show win3_3.index t (1 : Fin 2) * 1 + 1 * 0 = 0; omega

/-! ## One row's contribution -/

/-- Row `n`'s contribution to entry `(g, j)`: its activation at lane `j` when the row belongs to graph `g`. -/
def rowPart (g : Fin 50) (j : Fin 256) (n : Fin 50000) : EReal :=
  if (iat S50000x1 (V c main_v109) (ix2 n 0)).toInt = (g.val : Int)
    then max (fat S50000x256 (V c main_v106) (ix2 n j) * fat S50000x1 (V c main_v107) (ix2 n 0)
      + fat S1x256 (V c main_v108) (ix2 0 j)) 0 else 0

/-- The same with the row given as a natural number: zero beyond the 50000 rows. -/
def rowPartN (g : Fin 50) (j : Fin 256) (r : ℕ) : EReal :=
  if h : r < 50000 then rowPart V c g j ⟨r, h⟩ else 0

/-- What step `t` adds at entry `(g, j)` to a block holding `xo`: the contributions of its 2000 rows. -/
theorem step_apply (t : Fin cfg3.N) (xo : Vec Ideal S50x256 .f32) (g : Fin 50) (j : Fin 256) :
    fat S50x256 (k3_pay2 (iblk3 V c 0 t) (iblk3 V c 1 t) (iblk3 V c 2 t) (iblk3 V c 3 t) xo) (ix2 g j)
      = fat S50x256 xo (ix2 g j) + ∑ y : Fin 2000, rowPartN V c g j (2000 * t.val + y.val) := by
  have ht := step_lt t
  refine (Pool.pay2_apply (iblk3 V c 0 t) (iblk3 V c 1 t) (iblk3 V c 2 t) (iblk3 V c 3 t) xo g j).trans ?_
  refine congrArg (xo (ix2 g j) + ·) (Finset.sum_congr rfl fun y _ => ?_)
  have hr : 2000 * t.val + y.val < 50000 := by have := y.isLt; omega
  refine Eq.trans ?_ (dif_pos hr).symm
  exact Cert.Pool.ite_mul_eq _ _ _ _ _ _ _ _ _ (graph_blk V c t y hr) (feat_blk V c t y j hr) (dinv_blk V c t y hr)
    (bias_blk V c t j)

/-! ## The block after each step -/

/-- After step `n` the block holds, at `(g, j)`, the contributions of the first `2000 * (n + 1)` rows. -/
theorem block_after : ∀ (n : ℕ) (h : n < cfg3.N) (g : Fin 50) (j : Fin 256),
    fat S50x256 (outsAt3 V c n h) (ix2 g j) = ∑ r ∈ Finset.range (2000 * (n + 1)), rowPartN V c g j r
  | 0, h, g, j => by
    rw [outsAt3_A V c ⟨0, h⟩ rfl, Pool.out_first]
    refine (step_apply V c ⟨0, h⟩ _ g j).trans ?_
    rw [Cert.Pool.sum_range_mul_succ, Nat.mul_zero, Finset.sum_range_zero]
    exact congrArg (· + _) (Pool.pay1_apply (ix2 g j))
  | n + 1, h, g, j => by
    have hN : cfg3.N = 25 := N_3
    have hB : ¬(⟨n + 1, h⟩ : Fin cfg3.N).val % 25 = 0 := by dsimp only; omega
    rw [outsAt3_B V c ⟨n + 1, h⟩ hB, Pool.out_later]
    refine (step_apply V c ⟨n + 1, h⟩ _ g j).trans ?_
    rw [Cert.Pool.sum_range_mul_succ _ 2000 (n + 1)]
    exact congrArg (· + _) (block_after n (Nat.lt_of_succ_lt h) g j)

/-! ## The result array -/

/-- The block after the last step. -/
abbrev lastBlock : Buf (Elt Ideal) ((c : Thread nD τ).loc main_v110) :=
  outsAt3 V c 24 (by rw [show cfg3.N = 25 from N_3]; decide)

/-- The one write-back, after the last step, writes the block after the last step: block (0, 0) of a
    [50, 256] array is the array. -/
theorem flushed_last (t : Fin cfg3.N) (hf : (cfg3.win 4).flush t = true) :
    (dat3 V c).flushed 4 t = ((cfg3.win 4).blk t).view.read (Elt Ideal) (lastBlock V c) := by
  have ht := step_lt t
  have h24 : t.val = 24 := by have := (flush3_4 t).mp hf; omega
  obtain ⟨-, -, -, -, -, -, -, -, e0, e1⟩ := block_indices t
  obtain ⟨n, hn⟩ := t
  dsimp only at h24
  subst h24
  show (cfg3.win 4).cut (grid3.coords ⟨24, hn⟩) ((dat3 V c).after 4 ⟨24, hn⟩) = _
  rw [after3_4]
  have hz' : (fun a => win3_4.index ⟨24, hn⟩ a * main_v110.ty.shape.size a) = fun _ => 0 := funext fun a => by
    match a with
    | ⟨0, _⟩ => show win3_4.index ⟨24, hn⟩ (0 : Fin 2) * 50 = 0; rw [e0]
    | ⟨1, _⟩ => show win3_4.index ⟨24, hn⟩ (1 : Fin 2) * 256 = 0; rw [e1]
  exact (Memref.read_access_unit_zero (Elt Ideal) main_v110 hz' (fun a => by rw [congrFun hz' a]; simp) (lastBlock V c)).symm

/-- So the result array ends holding the block after the last step. -/
theorem array_eq_lastBlock : (dat3 V c).arrAt 4 cfg3.N = lastBlock V c :=
  (dat3 V c).arrAt_eq_of_cover 4 (lastBlock V c) (flushed_last V c) fun i => by
    have hN : cfg3.N = 25 := N_3
    let t : Fin cfg3.N := ⟨24, by omega⟩
    obtain ⟨-, -, -, -, -, -, -, -, e0, e1⟩ := block_indices t
    refine ⟨t, (flush3_4 t).mpr rfl, ?_⟩
    show i ∈ ((View.whole main_v110).slice (win3_4.rect t)).set
    rw [View.set_slice_whole, Rect.mem_set_unit]
    intro a
    have h0 : (i 0 : Nat) < 50 := (i 0).isLt
    have h1 : (i 1 : Nat) < 256 := (i 1).isLt
    match a with
    | ⟨0, _⟩ => show win3_4.index t (0 : Fin 2) * 50 ≤ (i 0 : Nat) ∧ (i 0 : Nat) < win3_4.index t (0 : Fin 2) * 50 + 50
                rw [e0]; omega
    | ⟨1, _⟩ => show win3_4.index t (1 : Fin 2) * 256 ≤ (i 1 : Nat) ∧ (i 1 : Nat) < win3_4.index t (1 : Fin 2) * 256 + 256
                rw [e1]; omega

/-- Region 3: the activation summed per graph. -/
theorem arr3 (g : Fin 50) (j : Fin 256) :
    fat S50x256 ((dat3 (F := Ideal) V c).arrAt 4 cfg3.N) (ix2 g j)
      = ∑ n : Fin 50000, if (iat S50000x1 (V c main_v109) (ix2 n 0)).toInt = (g.val : Int)
          then max (fat S50000x256 (V c main_v106) (ix2 n j) * fat S50000x1 (V c main_v107) (ix2 n 0)
            + fat S1x256 (V c main_v108) (ix2 0 j)) 0 else 0 := by
  rw [array_eq_lastBlock]
  refine (block_after V c 24 _ g j).trans ?_
  exact Cert.Pool.sum_range_dite 50000 (rowPart V c g j)

end Cert.KernelIdeal.Regions

end
-- ==== Proof.LibSegmentSum.lean ====
/-
  Accumulating scatters (jnp `.at[idx].add(v)`, `jax.ops.segment_sum`) read at an index, on the extended reals.

  A `stablehlo.scatter` whose body adds lands every update element on the operand element its start index names: the
  start is read SIGNED off the index array and is NOT clamped, and an update whose landing place is outside the operand
  is dropped. At the exact instance the result element is the operand's plus the sum of the updates landing on it.
  Three layouts are read here at coordinates, each as "operand plus the sum over the update's leading axis of the update
  where the index word names this element, zero elsewhere":
  * `rows`: operand `[N, C]`, indices `[R, 1]`, updates `[R, C]` — update row `e` is added to operand row `idx[e,0]`
    (a segment sum of rows);
  * `cells`: operand `[N]`, indices `[R, 1]`, updates `[R]` — update `e` is added to element `idx[e,0]` (a histogram,
    a degree count);
  * `pairs`: operand `[N, M]`, indices `[R, 2]`, updates `[R]` — update `e` is added to element `(idx[e,0], idx[e,1])`
    (a dense matrix assembled from coordinate triples).
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

/-! ## Rows: `[N, C]` at `[R, 1]` by `[R, C]` -/

/-- The dimension numbers of a scatter of whole rows: the update's axis 1 is the window, the operand's axis 0 is the
    one the index names. -/
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C M w : Nat}

/-- Where update element `(e, k)` lands: row `idx[e, 0]` read signed, column `k`; nowhere when that row is outside. -/
theorem rows_resultIdx? (wf : ScatterDims.WF ⟨2, ![N, C]⟩ ⟨2, ![R, 1]⟩ ⟨2, ![R, C]⟩ [1] [0] [0] 1)
    (idx : IVec ⟨2, ![R, 1]⟩ w) (e : Fin R) (k : Fin C) (r : Fin N) (c : Fin C) :
    (rowsDims N R C wf).resultIdx? (ix2 e k) idx = some (ix2 r c)
      ↔ (idx (ix2 e 0)).toInt = (r.val : Int) ∧ k = c := by
  have hs0 : (rowsDims N R C wf).start (ix2 e k) idx 0 = (idx (ix2 e 0)).toInt := by
    unfold ScatterDims.start
    rw [dif_pos (show (0 : Fin 2) ∈ (rowsDims N R C wf).scatterDimsToOperandDims from List.mem_singleton.mpr rfl)]
    congr 2
    funext b; refine Fin.ext ?_
    match b with
    | ⟨0, _⟩ => rfl
    | ⟨1, _⟩ => rfl
  have hs1 : (rowsDims N R C wf).start (ix2 e k) idx 1 = 0 := by
    unfold ScatterDims.start
    rw [dif_neg (show (1 : Fin 2) ∉ ([0] : List (Fin 2)) by decide)]
  have hw0 : (rowsDims N R C wf).window (ix2 e k) 0 = 0 := by
    unfold ScatterDims.window
    have hk : (rowsDims N R C wf).sKept = ([1] : List (Fin 2)) := rfl
    rw [dif_neg (hk ▸ (by decide : (0 : Fin 2) ∉ ([1] : List (Fin 2))))]
  have hw1 : (rowsDims N R C wf).window (ix2 e k) 1 = k.val := by
    unfold ScatterDims.window
    have hk : (rowsDims N R C wf).sKept = ([1] : List (Fin 2)) := rfl
    rw [dif_pos (hk ▸ (by decide : (1 : Fin 2) ∈ ([1] : List (Fin 2))))]
    rfl
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      rw [hs0, hw0] at hin0
      refine ⟨?_, Fin.ext ?_⟩
      · have : ((idx (ix2 e 0)).toInt + ((0 : ℕ) : Int)).toNat = r.val := h0
        omega
      · have : ((0 : Int) + (k.val : Int)).toNat = c.val := h1
        omega
    · exact absurd h (by simp)
  · rintro ⟨hr, rfl⟩
    have e0 : (rowsDims N R C wf).start (ix2 e k) idx 0 + (rowsDims N R C wf).window (ix2 e k) 0 = (r.val : Int) := by
      rw [hs0, hw0, hr]; omega
    have e1 : (rowsDims N R C wf).start (ix2 e k) idx 1 + (rowsDims N R C wf).window (ix2 e k) 1 = (k.val : Int) := by
      rw [hs1, hw1]; omega
    have hin : ∀ a : Fin 2, 0 ≤ (rowsDims N R C wf).start (ix2 e k) idx a + (rowsDims N R C wf).window (ix2 e k) a
        ∧ (rowsDims N R C wf).start (ix2 e k) idx a + (rowsDims N R C wf).window (ix2 e k) a < (⟨2, ![N, C]⟩ : Shape).size a := by
      intro a
      match a with
      | ⟨0, _⟩ =>
        have h : 0 ≤ (rowsDims N R C wf).start (ix2 e k) idx 0 + (rowsDims N R C wf).window (ix2 e k) 0
            ∧ (rowsDims N R C wf).start (ix2 e k) idx 0 + (rowsDims N R C wf).window (ix2 e k) 0 < (N : Int) := by
          rw [e0]; have := r.isLt; constructor <;> omega
        exact h
      | ⟨1, _⟩ =>
        have h : 0 ≤ (rowsDims N R C wf).start (ix2 e k) idx 1 + (rowsDims N R C wf).window (ix2 e k) 1
            ∧ (rowsDims N R C wf).start (ix2 e k) idx 1 + (rowsDims N R C wf).window (ix2 e k) 1 < (C : Int) := by
          rw [e1]; have := k.isLt; constructor <;> omega
        exact h
    rw [dif_pos hin]
    congr 1
    funext a; refine Fin.ext ?_
    match a with
    | ⟨0, _⟩ =>
      show ((rowsDims N R C wf).start (ix2 e k) idx 0 + (rowsDims N R C wf).window (ix2 e k) 0).toNat = r.val
      rw [e0]; omega
    | ⟨1, _⟩ =>
      show ((rowsDims N R C wf).start (ix2 e k) idx 1 + (rowsDims N R C wf).window (ix2 e k) 1).toNat = k.val
      rw [e1]; omega

/-- THE ROW SCATTER READ AT `(r, c)`: the operand's element plus the sum, over the update rows `e` whose index word
    `idx[e, 0]` (read signed) is `r`, of the update's element `(e, c)`. Rows whose index is negative or `≥ N` add
    nothing. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (r : Fin N) (c : Fin C) :
    Host.scatterAdd (rowsDims N R C wf) x idx upd (ix2 r c)
      = x (ix2 r c) + ∑ e : Fin R, if (idx (ix2 e 0)).toInt = (r.val : Int) then upd (ix2 e c) else 0 := by
  show Ideal.hostScatterAdd (rowsDims N R C wf) x idx upd (ix2 r c) = _
  unfold Ideal.hostScatterAdd
  congr 1
  rw [Finset.sum_filter, sum_idx2]
  refine Finset.sum_congr rfl fun e _ => ?_
  simp only [rows_resultIdx?]
  by_cases h : (idx (ix2 e 0)).toInt = (r.val : Int)
  · simp only [h, true_and, if_true]
    rw [Finset.sum_ite_eq' Finset.univ c fun k => upd (ix2 e k)]
    simp
  · simp [h]

/-! ## Cells: `[N]` at `[R, 1]` by `[R]` -/

/-- The dimension numbers of a scatter of single elements into a vector. -/
abbrev cellsDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update element `e` lands: element `idx[e, 0]` read signed; nowhere when that is outside. -/
theorem cells_resultIdx? (wf : ScatterDims.WF ⟨1, ![N]⟩ ⟨2, ![R, 1]⟩ ⟨1, ![R]⟩ [] [0] [0] 1)
    (idx : IVec ⟨2, ![R, 1]⟩ w) (e : Fin R) (r : Fin N) :
    (cellsDims N R wf).resultIdx? (ix1 e) idx = some (ix1 r) ↔ (idx (ix2 e 0)).toInt = (r.val : Int) := by
  have hs0 : (cellsDims N R wf).start (ix1 e) idx 0 = (idx (ix2 e 0)).toInt := by
    unfold ScatterDims.start
    rw [dif_pos (show (0 : Fin 1) ∈ (cellsDims N R wf).scatterDimsToOperandDims from List.mem_singleton.mpr rfl)]
    congr 2
    funext b; refine Fin.ext ?_
    match b with
    | ⟨0, _⟩ => rfl
    | ⟨1, _⟩ => rfl
  have hw0 : (cellsDims N R wf).window (ix1 e) 0 = 0 := by
    unfold ScatterDims.window
    have hk : (cellsDims N R wf).sKept = ([] : List (Fin 1)) := rfl
    rw [dif_neg (hk ▸ List.not_mem_nil)]
  unfold ScatterDims.resultIdx?
  constructor
  · intro h
    split at h
    · rename_i hin
      have h0 := congrArg (fun i => ((i (0 : Fin 1) : Fin _) : ℕ)) (Option.some.inj h)
      simp only [hs0, hw0] at h0
      have hin0 := hin 0
      rw [hs0, hw0] at hin0
      have : ((idx (ix2 e 0)).toInt + ((0 : ℕ) : Int)).toNat = r.val := h0
      omega
    · exact absurd h (by simp)
  · intro hr
    have e0 : (cellsDims N R wf).start (ix1 e) idx 0 + (cellsDims N R wf).window (ix1 e) 0 = (r.val : Int) := by
      rw [hs0, hw0, hr]; omega
    have hin : ∀ a : Fin 1, 0 ≤ (cellsDims N R wf).start (ix1 e) idx a + (cellsDims N R wf).window (ix1 e) a
        ∧ (cellsDims N R wf).start (ix1 e) idx a + (cellsDims N R wf).window (ix1 e) a < (⟨1, ![N]⟩ : Shape).size a := by
      intro a
      match a with
      | ⟨0, _⟩ =>
        have h : 0 ≤ (cellsDims N R wf).start (ix1 e) idx 0 + (cellsDims N R wf).window (ix1 e) 0
            ∧ (cellsDims N R wf).start (ix1 e) idx 0 + (cellsDims N R wf).window (ix1 e) 0 < (N : Int) := by
          rw [e0]; have := r.isLt; constructor <;> omega
        exact h
    rw [dif_pos hin]
    congr 1
    funext a; refine Fin.ext ?_
    match a with
    | ⟨0, _⟩ =>
      show ((cellsDims N R wf).start (ix1 e) idx 0 + (cellsDims N R wf).window (ix1 e) 0).toNat = r.val
      rw [e0]; omega

/-- A sum over the indices of a one-axis array is the sum over its coordinate. -/
theorem sum_ix1 {A : Type*} [AddCommMonoid A] {n : Nat} (g : (⟨1, ![n]⟩ : Shape).Idx → A) : ∑ i, g i = ∑ a : Fin n, g (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm g]
  rfl

/-- THE CELL SCATTER READ AT `r`: the operand's element plus the sum of the updates `e` whose index word `idx[e, 0]`
    (read signed) is `r`. With every update `1` this is the number of index words equal to `r`: a degree count. -/
theorem scatterAdd_cells_apply {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (r : Fin N) :
    Host.scatterAdd (cellsDims N R wf) x idx upd (ix1 r)
      = x (ix1 r) + ∑ e : Fin R, if (idx (ix2 e 0)).toInt = (r.val : Int) then upd (ix1 e) else 0 := by
  show Ideal.hostScatterAdd (cellsDims N R wf) x idx upd (ix1 r) = _
  unfold Ideal.hostScatterAdd
  congr 1
  rw [Finset.sum_filter, sum_ix1]
  refine Finset.sum_congr rfl fun e _ => ?_
  simp only [cells_resultIdx?]

/-! ## Pairs: `[N, M]` at `[R, 2]` by `[R]` -/

/-- The dimension numbers of a scatter of single elements into a matrix at (row, column) pairs. -/
abbrev pairsDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- Where update element `e` lands: row `idx[e, 0]`, column `idx[e, 1]`, both read signed; nowhere when either is
    outside the matrix. -/
theorem pairs_resultIdx? (wf : ScatterDims.WF ⟨2, ![N, M]⟩ ⟨2, ![R, 2]⟩ ⟨1, ![R]⟩ [] [0, 1] [0, 1] 1)
    (idx : IVec ⟨2, ![R, 2]⟩ w) (e : Fin R) (r : Fin N) (c : Fin M) :
    (pairsDims N M R wf).resultIdx? (ix1 e) idx = some (ix2 r c)
      ↔ (idx (ix2 e 0)).toInt = (r.val : Int) ∧ (idx (ix2 e 1)).toInt = (c.val : Int) := by
  have hs0 : (pairsDims N M R wf).start (ix1 e) idx 0 = (idx (ix2 e 0)).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : (pairsDims N M R wf).start (ix1 e) idx 1 = (idx (ix2 e 1)).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hk : (pairsDims N M R wf).sKept = ([] : List (Fin 2)) := rfl
  have hw0 : (pairsDims N M R wf).window (ix1 e) 0 = 0 := by
    unfold ScatterDims.window
    rw [dif_neg (hk ▸ List.not_mem_nil)]
  have hw1 : (pairsDims N M R wf).window (ix1 e) 1 = 0 := by
    unfold ScatterDims.window
    rw [dif_neg (hk ▸ List.not_mem_nil)]
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      have hin1 := hin 1
      rw [hs0, hw0] at hin0
      rw [hs1, hw1] at hin1
      have g0 : ((idx (ix2 e 0)).toInt + ((0 : ℕ) : Int)).toNat = r.val := h0
      have g1 : ((idx (ix2 e 1)).toInt + ((0 : ℕ) : Int)).toNat = c.val := h1
      constructor <;> omega
    · exact absurd h (by simp)
  · rintro ⟨hr, hc⟩
    have e0 : (pairsDims N M R wf).start (ix1 e) idx 0 + (pairsDims N M R wf).window (ix1 e) 0 = (r.val : Int) := by
      rw [hs0, hw0, hr]; omega
    have e1 : (pairsDims N M R wf).start (ix1 e) idx 1 + (pairsDims N M R wf).window (ix1 e) 1 = (c.val : Int) := by
      rw [hs1, hw1, hc]; omega
    have hin : ∀ a : Fin 2, 0 ≤ (pairsDims N M R wf).start (ix1 e) idx a + (pairsDims N M R wf).window (ix1 e) a
        ∧ (pairsDims N M R wf).start (ix1 e) idx a + (pairsDims N M R wf).window (ix1 e) a < (⟨2, ![N, M]⟩ : Shape).size a := by
      intro a
      match a with
      | ⟨0, _⟩ =>
        have h : 0 ≤ (pairsDims N M R wf).start (ix1 e) idx 0 + (pairsDims N M R wf).window (ix1 e) 0
            ∧ (pairsDims N M R wf).start (ix1 e) idx 0 + (pairsDims N M R wf).window (ix1 e) 0 < (N : Int) := by
          rw [e0]; have := r.isLt; constructor <;> omega
        exact h
      | ⟨1, _⟩ =>
        have h : 0 ≤ (pairsDims N M R wf).start (ix1 e) idx 1 + (pairsDims N M R wf).window (ix1 e) 1
            ∧ (pairsDims N M R wf).start (ix1 e) idx 1 + (pairsDims N M R wf).window (ix1 e) 1 < (M : Int) := by
          rw [e1]; have := c.isLt; constructor <;> omega
        exact h
    rw [dif_pos hin]
    congr 1
    funext a; refine Fin.ext ?_
    match a with
    | ⟨0, _⟩ =>
      show ((pairsDims N M R wf).start (ix1 e) idx 0 + (pairsDims N M R wf).window (ix1 e) 0).toNat = r.val
      rw [e0]; omega
    | ⟨1, _⟩ =>
      show ((pairsDims N M R wf).start (ix1 e) idx 1 + (pairsDims N M R wf).window (ix1 e) 1).toNat = c.val
      rw [e1]; omega

/-- THE PAIR SCATTER READ AT `(r, c)`: the operand's element plus the sum of the updates `e` whose index pair
    `(idx[e, 0], idx[e, 1])` (read signed) is `(r, c)`: the dense matrix of a list of weighted coordinate pairs, repeated
    pairs accumulated. -/
theorem scatterAdd_pairs_apply {φ : FTy} (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ) (r : Fin N) (c : Fin M) :
    Host.scatterAdd (pairsDims N M R wf) x idx upd (ix2 r c)
      = x (ix2 r c) + ∑ e : Fin R,
          if (idx (ix2 e 0)).toInt = (r.val : Int) ∧ (idx (ix2 e 1)).toInt = (c.val : Int) then upd (ix1 e) else 0 := by
  show Ideal.hostScatterAdd (pairsDims N M R wf) x idx upd (ix2 r c) = _
  unfold Ideal.hostScatterAdd
  congr 1
  rw [Finset.sum_filter, sum_ix1]
  refine Finset.sum_congr rfl fun e _ => ?_
  simp only [pairs_resultIdx?]

end Idealize.ShloMosaic.SegmentSum

end
-- ==== Proof.PoolRef.lean ====
/-
  The reference's per-graph sum read at one entry.

  The reference computes the activation of every node row, `max (h (n, j) * dinv (n) + bias (j)) 0` with the
  inverse degree broadcast along the row and the bias broadcast down the column, and adds every row into the
  row of a zero [50, 256] array that the node's graph number names (a scatter that adds). On the extended reals
  the entry `(g, j)` of the result is therefore the sum, over all 50000 rows `n` whose graph number read signed
  is `g`, of the activation of row `n` at lane `j` (`ref_pool_apply`). A graph number outside the 50 graphs
  lands nowhere and adds nothing, exactly as a row that matches no `g` is absent from every sum.
-/
import proofs.«105314_j12644383719477_2_alg».proof.Proof.RefRead
import proofs.«105314_j12644383719477_2_alg».proof.Proof.ReadAt
import proofs.«105314_j12644383719477_2_alg».proof.Proof.LibSegmentSum
import Idealize.ShloMosaic.Lib.ValueIdx
import Idealize.ShloMosaic.PureOps.Ideal.Laws

set_option maxRecDepth 16384

noncomputable section

open scoped BigOperators

namespace Cert.ReferenceIdeal.Pool

open Cert.Arr Cert.ReferenceIdeal Cert.ReferenceIdeal.ReadP
open Idealize.ShloMosaic Idealize.ShloMosaic.ValueIdx Idealize.ShloMosaic.TcCoe Idealize.SL.Sem

/-! ## The broadcasts' index maps -/

/-- The inverse degree broadcast to the matrix reads, at `(n, j)`, the vector's entry `n`. -/
theorem idx_dinv (n : Fin 50000) (j : Fin 256) : idx_main_v108 (idx_main_v109 (ix2 n j)) = ix1 n :=
  funext fun a => match a with
    | ⟨0, _⟩ => rfl

/-- The bias broadcast to the matrix reads, at `(n, j)`, the vector's entry `j`. -/
theorem idx_bias (n : Fin 50000) (j : Fin 256) : idx_main_v111 (idx_main_v112 (ix2 n j)) = ix1 j :=
  funext fun a => match a with
    | ⟨0, _⟩ => rfl

/-- The graph numbers as a column read, at `(n, 0)`, the vector's entry `n`. -/
theorem idx_graph (n : Fin 50000) : idx_main_v120 (ix2 n (0 : Fin 1)) = ix1 n :=
  funext fun a => match a with
    | ⟨0, _⟩ => rfl

section
variable (x0 : (⟨S50000x128, .f32⟩ : BufTy).Contents (Elt Ideal)) (x1 : (⟨S2x500000, .i32⟩ : BufTy).Contents (Elt Ideal))
  (x2 : (⟨S50000, .i32⟩ : BufTy).Contents (Elt Ideal))
  (x3 : (⟨S128x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))

/-- The reference's activation at `(n, j)`: the aggregated feature times the node's inverse degree, plus the
    bias, clamped at zero. -/
theorem ref_act_apply (n : Fin 50000) (j : Fin 256) :
    fat S50000x256 (val_main_v114 (F := Ideal) x0 x1 x3 x4 x5 x6 x7 x8) (ix2 n j)
      = max (fat S50000x256 (val_main_v107 (F := Ideal) x0 x1 x3 x4 x5 x6 x7) (ix2 n j)
          * fat S50000 (val_main_v12 (F := Ideal) x1) (ix1 n) + fat S256 x8 (ix1 j)) 0 := by
  show val_main_v114 (F := Ideal) x0 x1 x3 x4 x5 x6 x7 x8 (ix2 n j) = _
  rw [val_main_v114_apply, val_main_v113_apply, val_main_v110_apply, val_main_v109_apply, val_main_v108_apply,
    val_main_v112_apply, val_main_v111_apply, val_main_call4_v0_apply, val_main_call4_cst_apply, idx_dinv, idx_bias]
  show max (_ * _ + _) (Ideal.ofBits .f32 0x00000000#32) = _
  rw [Ideal.ofBits_zero_f32]

/-- The reference's per-graph sum at `(g, j)`: the activations, at lane `j`, of the rows whose graph number is `g`. -/
theorem ref_pool_apply (g : Fin 50) (j : Fin 256) :
    fat S50x256 (val_main_v121 (F := Ideal) x0 x1 x2 x3 x4 x5 x6 x7 x8) (ix2 g j)
      = ∑ n : Fin 50000, if (iat S50000 x2 (ix1 n)).toInt = (g.val : Int)
          then max (fat S50000x256 (val_main_v107 (F := Ideal) x0 x1 x3 x4 x5 x6 x7) (ix2 n j)
            * fat S50000 (val_main_v12 (F := Ideal) x1) (ix1 n) + fat S256 x8 (ix1 j)) 0 else 0 := by
  show val_main_v121 (F := Ideal) x0 x1 x2 x3 x4 x5 x6 x7 x8 (ix2 g j) = _
  unfold val_main_v121
  refine (SegmentSum.scatterAdd_rows_apply (N := 50) (R := 50000) (C := 256)
    scatter_S50x256_S50000x1_S50000x256_1_0_0_1.wf (val_main_v119 (F := Ideal)) (val_main_v120 (F := Ideal) x2)
    (val_main_v114 (F := Ideal) x0 x1 x3 x4 x5 x6 x7 x8) g j).trans ?_
  rw [val_main_v119_apply, val_main_cst_28_apply]
  show Ideal.ofBits .f32 0x00000000#32 + _ = _
  rw [Ideal.ofBits_zero_f32, zero_add]
  refine Finset.sum_congr rfl fun n _ => ?_
  rw [val_main_v120_apply, idx_graph]
  exact if_congr Iff.rfl (ref_act_apply x0 x1 x3 x4 x5 x6 x7 x8 n j) rfl

end

end Cert.ReferenceIdeal.Pool

end
-- ==== Proof.Stage3.lean ====
/-
  The pooling launch against the reference's per-graph sum.

  The pooling launch leaves in its output array, at `(g, j)`, the sum over the node rows `n` of graph `g` of the
  activation `max (h (n, j) * dinv (n, 0) + bias (0, j)) 0`, read off the four arrays it is given. Those four are,
  at the launch's entry: the aggregated features (the hypothesis: the reference's third aggregate), and three
  arrays the host wrote just before the launch by re-laying vectors — the nodes' inverse degrees as a column, the
  third layer's bias as a row, the nodes' graph numbers as a column. A vector re-laid as a column or as a row has
  the vector's entries, so the launch sums exactly what the reference's adding scatter sums, entry by entry.
-/
import proofs.«105314_j12644383719477_2_alg».proof.Proof.Gen.KernelIdeal.Frame
import proofs.«105314_j12644383719477_2_alg».proof.Proof.RefRead
import proofs.«105314_j12644383719477_2_alg».proof.Proof.Args
import proofs.«105314_j12644383719477_2_alg».proof.Proof.Carry
import proofs.«105314_j12644383719477_2_alg».proof.Proof.ReadAt
import proofs.«105314_j12644383719477_2_alg».proof.Proof.LibKeepdims
import proofs.«105314_j12644383719477_2_alg».proof.Proof.Region3
import proofs.«105314_j12644383719477_2_alg».proof.Proof.PoolRef
import Idealize.ShloMosaic.Lib.StableHlo.Run
import Idealize.ShloMosaic.Lib.ValueLayout

set_option maxRecDepth 16384

noncomputable section

open scoped BigOperators

namespace Cert.Bridge

open Cert.Arr Cert.KernelIdeal Cert.KernelIdeal.Gen Cert.ReferenceIdeal.ReadP
open Idealize.ShloMosaic Idealize.ShloMosaic.ValueIdx Idealize.ShloMosaic.TcCoe Idealize.SL.Sem
open Idealize.ShloMosaic.StableHlo

variable (m : (ℓ : Loc nD τ sig) → Buf (Elt Ideal) ℓ) (ρ : Dev nD → PrngReg) (c : Dev nD)

/-! ## The three re-laid vectors at the launch's entry -/

/-- The graph numbers as a column: the host's re-laying of the argument vector. -/
theorem graph_column : W10 m ρ c (Proc.devRef .tc main_v109)
    = shapeCast S50000x1 (W9 m ρ c (Proc.devRef .tc main_arg2)) shapeCasts_S50000_S50000x1 := by
  show StableHlo.after hostOps3 (W9 m ρ c) (Proc.devRef .tc main_v109) = _
  after_results_simp
  rfl

/-- The inverse degrees as a column: the host's re-laying of the inverse-degree vector. -/
theorem dinv_column : W10 m ρ c (Proc.devRef .tc main_v107)
    = shapeCast S50000x1 (W9 m ρ c (Proc.devRef .tc main_v12)) shapeCasts_S50000_S50000x1 := by
  show StableHlo.after hostOps3 (W9 m ρ c) (Proc.devRef .tc main_v107) = _
  after_results_simp
  rfl

/-- The bias as a row: the host's re-laying of the bias vector. -/
theorem bias_row : W10 m ρ c (Proc.devRef .tc main_v108)
    = shapeCast S1x256 (W9 m ρ c (Proc.devRef .tc main_arg8)) shapeCasts_S256_S1x256 := by
  show StableHlo.after hostOps3 (W9 m ρ c) (Proc.devRef .tc main_v108) = _
  after_results_simp
  rfl

/-- Row `n` of the graph-number column is the argument's entry `n`. -/
theorem graph_at (n : Fin 50000) :
    iat S50000x1 (V10 m ρ c main_v109) (ix2 n (0 : Fin 1)) = iat S50000 (a2 m c) (ix1 n) := by
  have e : W9 m ρ c (Proc.devRef .tc main_arg2) = a2 m c :=
    (Cert.KernelIdeal.Carry.at9 m ρ c main_arg2 (by decide)).trans (Cert.KernelIdeal.Carry.args_at4 m ρ c main_arg2 (by decide))
  show W10 m ρ c (Proc.devRef .tc main_v109) (ix2 n (0 : Fin 1)) = a2 m c (ix1 n)
  rw [graph_column, e]
  exact Cert.Lib.Keepdims.shapeCast_a_a1_apply (a2 m c) shapeCasts_S50000_S50000x1 n 0

/-- Row `n` of the inverse-degree column is the reference's inverse degree of node `n`. -/
theorem dinv_at (hd : W4 m ρ c (Proc.devRef .tc main_v12) = val_main_v12 (F := Ideal) (a1 m c)) (n : Fin 50000) :
    fat S50000x1 (V10 m ρ c main_v107) (ix2 n (0 : Fin 1)) = fat S50000 (val_main_v12 (F := Ideal) (a1 m c)) (ix1 n) := by
  have e : W9 m ρ c (Proc.devRef .tc main_v12) = val_main_v12 (F := Ideal) (a1 m c) :=
    (Cert.KernelIdeal.Carry.at9 m ρ c main_v12 (by decide)).trans hd
  show W10 m ρ c (Proc.devRef .tc main_v107) (ix2 n (0 : Fin 1)) = val_main_v12 (F := Ideal) (a1 m c) (ix1 n)
  rw [dinv_column, e]
  exact Cert.Lib.Keepdims.shapeCast_a_a1_apply (val_main_v12 (F := Ideal) (a1 m c)) shapeCasts_S50000_S50000x1 n 0

/-- Lane `j` of the bias row is the argument's entry `j`. -/
theorem bias_at (j : Fin 256) :
    fat S1x256 (V10 m ρ c main_v108) (ix2 (0 : Fin 1) j) = fat S256 (a8 m c) (ix1 j) := by
  have e : W9 m ρ c (Proc.devRef .tc main_arg8) = a8 m c :=
    (Cert.KernelIdeal.Carry.at9 m ρ c main_arg8 (by decide)).trans (Cert.KernelIdeal.Carry.args_at4 m ρ c main_arg8 (by decide))
  show W10 m ρ c (Proc.devRef .tc main_v108) (ix2 (0 : Fin 1) j) = a8 m c (ix1 j)
  rw [bias_row, e]
  exact shapeCast_a_1a_apply (a8 m c) shapeCasts_S256_S1x256 0 j

/-! ## The launch's output array is the reference's per-graph sum -/

theorem stage3b (hd : W4 m ρ c (Proc.devRef .tc main_v12) = val_main_v12 (F := Ideal) (a1 m c))
    (h : W10 m ρ c (Proc.devRef .tc main_v106) = val_main_v107 (F := Ideal) (a0 m c) (a1 m c) (a3 m c) (a4 m c) (a5 m c) (a6 m c) (a7 m c)) :
    W11 m ρ c (Proc.devRef .tc main_v110) = val_main_v121 (F := Ideal) (a0 m c) (a1 m c) (a2 m c) (a3 m c) (a4 m c) (a5 m c) (a6 m c) (a7 m c) (a8 m c) := by
  refine (W11_arr m ρ c 4).trans ?_
  have e106 : V10 m ρ c main_v106 = val_main_v107 (F := Ideal) (a0 m c) (a1 m c) (a3 m c) (a4 m c) (a5 m c) (a6 m c) (a7 m c) := h
  funext i
  obtain ⟨g, j, rfl⟩ : ∃ (g : Fin 50) (j : Fin 256), i = ix2 g j := ⟨i 0, i 1, eq_ix2 i⟩
  refine (Cert.KernelIdeal.Regions.arr3 (V10 m ρ) c g j).trans ?_
  refine Eq.trans ?_ (Cert.ReferenceIdeal.Pool.ref_pool_apply (a0 m c) (a1 m c) (a2 m c) (a3 m c) (a4 m c) (a5 m c) (a6 m c)
    (a7 m c) (a8 m c) g j).symm
  refine Finset.sum_congr rfl fun n _ => ?_
  rw [graph_at m ρ c n, dinv_at m ρ c hd n, bias_at m ρ c j, e106]

end Cert.Bridge

end
-- ==== Proof.HeadPayload.lean ====
/-
  The two-layer head read at an entry. On the extended reals the value the head's body stores, at row g and
  column j, is the second product of the clamped first layer plus the second bias:

    (sum over k of max ((sum over l of x (g, l) * M1 (l, k)) + b1 (0, k), 0) * M2 (k, j)) + b2 (0, j).

  Each matrix product into the zero accumulator is the plain sum over the shared axis; a change of float
  format is the identity on the extended reals; a cast to the same shape changes nothing; a one-row array
  broadcast over the rows reads its one row.
-/
import proofs.«105314_j12644383719477_2_alg».proof.Proof.Gen.KernelIdeal.Skeleton
import proofs.«105314_j12644383719477_2_alg».proof.Proof.LibPlainDot
import Idealize.ShloMosaic.Lib.ValueLayout
import Idealize.ShloMosaic.Lib.Pipeline.Value

noncomputable section

open scoped BigOperators

namespace Cert.KernelIdeal.Head

open Idealize.ShloMosaic Idealize.ShloMosaic.ValueIdx Cert.KernelIdeal Cert.KernelIdeal.Gen

/-- The first layer before the clamp, at row g and hidden unit k. -/
theorem layer1_apply (x : Vec Ideal S50x256 .f32) (M1 : Vec Ideal S256x256 .f32) (g : Fin 50) (k : Fin 256) :
    FloatOps.matmul dot_S50x256_S256x256_S50x256_1_0_0_1_n_n none
        (truncf .bf16 (shapeCast S50x256 x shapeCasts_S50x256_S50x256) bitsLt_bf16_f32 : FVec Ideal S50x256 .bf16)
        (truncf .bf16 M1 bitsLt_bf16_f32 : FVec Ideal S256x256 .bf16)
        (constant S50x256 .f32 0x00000000#32) (ix2 g k)
      = ∑ l : Fin 256, (x : S50x256.Idx → EReal) (ix2 g l) * (M1 : S256x256.Idx → EReal) (ix2 l k) := by
  rw [shapeCast_self]
  exact Cert.Lib.PlainDot.matmul_plain_zero_apply (M := 50) (K := 256) (N := 256) none _ _ g k

/-- A one-row array cast to its own shape and broadcast over the rows reads, at (g, k), its one row at k. -/
theorem rowBias_apply {a b : ℕ} (v : (⟨2, ![1, b]⟩ : Shape).Idx → EReal)
    (hc : (⟨2, ![1, b]⟩ : Shape).ShapeCasts ⟨2, ![1, b]⟩) (hb : (⟨2, ![1, b]⟩ : Shape).Broadcasts ⟨2, ![a, b]⟩)
    (g : Fin a) (k : Fin b) :
    broadcastTo ⟨2, ![a, b]⟩ (shapeCast ⟨2, ![1, b]⟩ v hc) hb (ix2 g k) = v (ix2 (0 : Fin 1) k) := by
  rw [shapeCast_self]
  exact broadcastTo_1b_ab_apply v hb g k

/-- The head's stored value at row g and column j. -/
theorem head_apply (x : Vec Ideal S50x256 .f32) (M1 : Vec Ideal S256x256 .f32) (b1 : Vec Ideal S1x256 .f32)
    (M2 : Vec Ideal S256x2 .f32) (b2 : Vec Ideal S1x2 .f32) (g : Fin 50) (j : Fin 2) :
    (k4_pay1 x M1 b1 M2 b2 : S50x2.Idx → EReal) (ix2 g j)
      = (∑ k : Fin 256, max ((∑ l : Fin 256, (x : S50x256.Idx → EReal) (ix2 g l) * (M1 : S256x256.Idx → EReal) (ix2 l k))
            + (b1 : S1x256.Idx → EReal) (ix2 0 k)) 0 * (M2 : S256x2.Idx → EReal) (ix2 k j))
          + (b2 : S1x2.Idx → EReal) (ix2 0 j) := by
  unfold k4_pay1
  refine (addf_apply _ _ _).trans ?_
  refine congrArg₂ (fun a b : EReal => a + b) ?_ (rowBias_apply (a := 50) (b := 2) b2 _ _ g j)
  refine (Cert.Lib.PlainDot.matmul_plain_zero_apply (M := 50) (K := 256) (N := 2) none _ _ g j).trans ?_
  refine Finset.sum_congr rfl fun k _ => ?_
  refine congrArg₂ (fun a b : EReal => a * b) ?_ rfl
  refine congrArg₂ (fun a b : EReal => max a b) ?_ Ideal.ofBits_zero_f32
  exact congrArg₂ (fun a b : EReal => a + b) (layer1_apply x M1 g k) (rowBias_apply (a := 50) (b := 256) b1 _ _ g k)

end Cert.KernelIdeal.Head

end
-- ==== Proof.Region4.lean ====
/-
  Region 4: the two-layer head on the pooled features. The launch has one grid point and every window's block is
  its whole array, so the one write-back leaves in the output array the head's value of the five input arrays as
  the region finds them. Read at row g and column j that value is

    (sum over k of max ((sum over l of pooled (g, l) * M1 (l, k)) + b1 (0, k), 0) * M2 (k, j)) + b2 (0, j).
-/
import proofs.«105314_j12644383719477_2_alg».proof.Proof.Gen.KernelIdeal.Frame
import proofs.«105314_j12644383719477_2_alg».proof.Proof.HeadPayload
import proofs.«105314_j12644383719477_2_alg».proof.Proof.ReadAt
import Idealize.ShloMosaic.Lib.Pipeline.Value
import Idealize.ShloMosaic.Lib.ValueIdx
import Idealize.ShloMosaic.PureOps.Ideal

noncomputable section

open scoped BigOperators

namespace Cert.KernelIdeal.Regions

open Cert.Arr Idealize.ShloMosaic Idealize.ShloMosaic.ValueIdx Idealize.ShloMosaic.TcCoe Idealize.SL.Sem Cert.KernelIdeal Cert.KernelIdeal.Gen

namespace Readout

variable (V : (c : Dev nD) → (b : Ref sig .tc) → Buf (Elt Ideal) ((c : Thread nD τ).loc b)) (c : Dev nD)

/-- The two zero offsets of a whole-array access, as the constant zero function. -/
theorem zeroOffsets : (![0, 0] : Fin 2 → Nat) = fun _ => 0 := funext fun a => by fin_cases a <;> rfl

/-- The head's value of the five input arrays as the region finds them: what the output array ends holding. -/
def headArr : S50x2.Idx → EReal :=
  k4_pay1 (F := Ideal) (V c main_v119) (V c main_arg9) (V c main_v120) (V c main_arg11) (V c main_v121)

/-! ## Each input block is its whole array

At the one grid point every window's block index is (0, 0) and its block has the array's sizes, so the block read
through the window is the array. -/

/-- The pooled features' block is the whole [50, 256] array. -/
theorem pooledBlock_eq (t : Fin cfg4.N) :
    (iblk4 (F := Ideal) V c 0 t : S50x256.Idx → EReal) = (V c main_v119 : S50x256.Idx → EReal) := by
  have ht : t = t4_0 := fin_N4 t
  subst ht
  have hz : (fun a => win4_0.index t4_0 a * main_v119.ty.shape.size a) = fun _ => 0 :=
    funext fun a => by fin_cases a <;> decide
  exact Memref.read_access_unit_zero (Elt Ideal) main_v119 hz (fun a => by rw [congrFun hz a]; simp) (V c main_v119)

/-- The first weight matrix's block is the whole [256, 256] array. -/
theorem weight1Block_eq (t : Fin cfg4.N) :
    (iblk4 (F := Ideal) V c 1 t : S256x256.Idx → EReal) = (V c main_arg9 : S256x256.Idx → EReal) := by
  have ht : t = t4_0 := fin_N4 t
  subst ht
  have hz : (fun a => win4_1.index t4_0 a * main_arg9.ty.shape.size a) = fun _ => 0 :=
    funext fun a => by fin_cases a <;> decide
  exact Memref.read_access_unit_zero (Elt Ideal) main_arg9 hz (fun a => by rw [congrFun hz a]; simp) (V c main_arg9)

/-- The first bias's block is the whole [1, 256] array. -/
theorem bias1Block_eq (t : Fin cfg4.N) :
    (iblk4 (F := Ideal) V c 2 t : S1x256.Idx → EReal) = (V c main_v120 : S1x256.Idx → EReal) := by
  have ht : t = t4_0 := fin_N4 t
  subst ht
  have hz : (fun a => win4_2.index t4_0 a * main_v120.ty.shape.size a) = fun _ => 0 :=
    funext fun a => by fin_cases a <;> decide
  exact Memref.read_access_unit_zero (Elt Ideal) main_v120 hz (fun a => by rw [congrFun hz a]; simp) (V c main_v120)

/-- The second weight matrix's block is the whole [256, 2] array. -/
theorem weight2Block_eq (t : Fin cfg4.N) :
    (iblk4 (F := Ideal) V c 3 t : S256x2.Idx → EReal) = (V c main_arg11 : S256x2.Idx → EReal) := by
  have ht : t = t4_0 := fin_N4 t
  subst ht
  have hz : (fun a => win4_3.index t4_0 a * main_arg11.ty.shape.size a) = fun _ => 0 :=
    funext fun a => by fin_cases a <;> decide
  exact Memref.read_access_unit_zero (Elt Ideal) main_arg11 hz (fun a => by rw [congrFun hz a]; simp) (V c main_arg11)

/-- The second bias's block is the whole [1, 2] array. -/
theorem bias2Block_eq (t : Fin cfg4.N) :
    (iblk4 (F := Ideal) V c 4 t : S1x2.Idx → EReal) = (V c main_v121 : S1x2.Idx → EReal) := by
  have ht : t = t4_0 := fin_N4 t
  subst ht
  have hz : (fun a => win4_4.index t4_0 a * main_v121.ty.shape.size a) = fun _ => 0 :=
    funext fun a => by fin_cases a <;> decide
  exact Memref.read_access_unit_zero (Elt Ideal) main_v121 hz (fun a => by rw [congrFun hz a]; simp) (V c main_v121)

/-! ## The one write-back, and the output array after the launch -/

/-- What the body leaves in the output's staging buffer is the head's value of the five whole arrays. -/
theorem staged_eq (t : Fin cfg4.N) :
    out4_5 (F := Ideal) (iblk4 V c 0 t) (iblk4 V c 1 t) (iblk4 V c 2 t) (iblk4 V c 3 t) (iblk4 V c 4 t) = headArr V c := by
  unfold out4_5
  rw [View.canon_unit_zero zeroOffsets]
  simp only [View.ld_unit_zero (S := S50x256) zeroOffsets, View.ld_unit_zero (S := S256x256) zeroOffsets,
    View.ld_unit_zero (S := S1x256) zeroOffsets, View.ld_unit_zero (S := S256x2) zeroOffsets,
    View.ld_unit_zero (S := S1x2) zeroOffsets]
  unfold headArr
  rw [pooledBlock_eq V c t, weight1Block_eq V c t, bias1Block_eq V c t, weight2Block_eq V c t, bias2Block_eq V c t]

/-- The point writes back the output's block of that value: the block is the whole [50, 2] array. -/
theorem flushed_eq (t : Fin cfg4.N) :
    (dat4 (F := Ideal) V c).flushed 5 t = ((cfg4.win 5).blk t).view.read (Elt Ideal) (headArr V c) := by
  show (cfg4.win 5).cut (grid4.coords t) ((dat4 V c).after 5 t) = _
  rw [after4_5, staged_eq]
  have ht : t = t4_0 := fin_N4 t
  subst ht
  have hz : (fun a => win4_5.index t4_0 a * main_v122.ty.shape.size a) = fun _ => 0 :=
    funext fun a => by fin_cases a <;> decide
  exact (Memref.read_access_unit_zero (Elt Ideal) main_v122 hz (fun a => by rw [congrFun hz a]; simp) (headArr V c)).symm

/-- Every index of the output array is in the one point's block. -/
theorem covered (i : S50x2.Idx) :
    ∃ t : Fin cfg4.N, (cfg4.win 5).flush t = true ∧ i ∈ ((cfg4.win 5).blk t).view.set := by
  refine ⟨t4_0, flush4_5 t4_0, ?_⟩
  show i ∈ ((View.whole main_v122).slice (win4_5.rect t4_0)).set
  rw [View.set_slice_whole, Rect.mem_set_unit]
  intro a
  have h0 : (i 0 : Nat) < 50 := (i 0).isLt
  have h1 : (i 1 : Nat) < 2 := (i 1).isLt
  match a with
  | ⟨0, _⟩ =>
    show win4_5.index t4_0 0 * win4_5.size 0 ≤ (i 0 : Nat) ∧ (i 0 : Nat) < win4_5.index t4_0 0 * win4_5.size 0 + win4_5.xsize (grid4.coords t4_0) 0
    rw [show win4_5.index t4_0 0 * win4_5.size 0 = 0 from by decide +kernel, show win4_5.xsize (grid4.coords t4_0) 0 = 50 from by decide +kernel]
    omega
  | ⟨1, _⟩ =>
    show win4_5.index t4_0 1 * win4_5.size 1 ≤ (i 1 : Nat) ∧ (i 1 : Nat) < win4_5.index t4_0 1 * win4_5.size 1 + win4_5.xsize (grid4.coords t4_0) 1
    rw [show win4_5.index t4_0 1 * win4_5.size 1 = 0 from by decide +kernel, show win4_5.xsize (grid4.coords t4_0) 1 = 2 from by decide +kernel]
    omega

/-- The output array after the launch is the head's value of the five input arrays. -/
theorem final4 : (dat4 (F := Ideal) V c).arrAt 5 cfg4.N = headArr V c :=
  (dat4 V c).arrAt_eq_of_cover 5 (headArr V c) (fun t _ => flushed_eq V c t) (covered)

end Readout

variable (V : (c : Dev nD) → (b : Ref sig .tc) → Buf (Elt Ideal) ((c : Thread nD τ).loc b)) (c : Dev nD)

/-- Region 4: the two-layer head on the pooled features. -/
theorem arr4 (g : Fin 50) (j : Fin 2) :
    fat S50x2 ((dat4 (F := Ideal) V c).arrAt 5 cfg4.N) (ix2 g j)
      = (∑ k : Fin 256, max ((∑ l : Fin 256, fat S50x256 (V c main_v119) (ix2 g l) * fat S256x256 (V c main_arg9) (ix2 l k))
            + fat S1x256 (V c main_v120) (ix2 0 k)) 0 * fat S256x2 (V c main_arg11) (ix2 k j))
          + fat S1x2 (V c main_v121) (ix2 0 j) := by
  rw [Readout.final4]
  exact Cert.KernelIdeal.Head.head_apply (V c main_v119) (V c main_arg9) (V c main_v120) (V c main_arg11) (V c main_v121) g j

end Cert.KernelIdeal.Regions

end
-- ==== Proof.Stage4.lean ====
/-
  The last stretch of host operations and the last launch against the reference's last stages.

  The stretch before the head's launch counts the nodes of each graph, takes the count's maximum with one, and
  divides the per-graph sums of the activation by it: the mean over each graph's nodes. The reference applies the
  same operations to the same operands (its per-graph sums, and the graph number of each node), so once the operands
  are identified the two quotients are one term.

  The head's launch then leaves, at row g and column j,
    (sum over k of max ((sum over l of pooled (g, l) * M1 (l, k)) + b1 (0, k), 0) * M2 (k, j)) + b2 (0, j),
  with the two biases the arguments' vectors laid out as one row. The reference's last five operations (a product, a
  bias, a maximum with zero, a product, a bias), on the extended reals, read at (g, j), are the same expression.
-/
import proofs.«105314_j12644383719477_2_alg».proof.Proof.Gen.KernelIdeal.Frame
import proofs.«105314_j12644383719477_2_alg».proof.Proof.RefRead
import proofs.«105314_j12644383719477_2_alg».proof.Proof.Args
import proofs.«105314_j12644383719477_2_alg».proof.Proof.Carry
import proofs.«105314_j12644383719477_2_alg».proof.Proof.Region4
import Idealize.ShloMosaic.Lib.ValueLayout

set_option maxRecDepth 16384

noncomputable section

open scoped BigOperators

namespace Cert.Bridge

open Cert.Arr Cert.KernelIdeal Cert.KernelIdeal.Gen Cert.ReferenceIdeal.ReadP
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg) (c : Dev nD)

/-! ## The mean over each graph's nodes -/

/-- The graph number of each node, as the last stretch finds it, is the argument. -/
theorem graphs_at11 : W11 m ρ c (Proc.devRef .tc main_arg2) = a2 m c :=
  (Cert.KernelIdeal.Carry.at11 m ρ c main_arg2 (by decide)).trans (Cert.KernelIdeal.Carry.args_at4 m ρ c main_arg2 (by decide))

/-- The pooled features the head's launch reads are the reference's per-graph means. -/
theorem stage4a (h : W11 m ρ c (Proc.devRef .tc main_v110) = val_main_v121 (F := Ideal) (a0 m c) (a1 m c) (a2 m c) (a3 m c) (a4 m c) (a5 m c) (a6 m c) (a7 m c) (a8 m c)) :
    W12 m ρ c (Proc.devRef .tc main_v119) = val_main_v126 (F := Ideal) (a0 m c) (a1 m c) (a2 m c) (a3 m c) (a4 m c) (a5 m c) (a6 m c) (a7 m c) (a8 m c) := by
  show StableHlo.after hostOps4 (W11 m ρ c) (Proc.devRef .tc main_v119) = _
  after_results_simp
  rw [h, graphs_at11]
  unfold val_main_v126 val_main_v125 val_main_v124 val_main_v123 val_main_v122 val_main_v118 val_main_v117
    val_main_v116 val_main_v115 val_main_cst_26 val_main_cst_27 val_main_cst_29
  rfl

/-! ## The head -/

/-- The two weight arrays of the head, as its launch finds them, are the arguments. -/
theorem weight1_at12 : V12 m ρ c main_arg9 = a9 m c :=
  (Cert.KernelIdeal.Carry.at12 m ρ c main_arg9 (by decide)).trans (Cert.KernelIdeal.Carry.args_at4 m ρ c main_arg9 (by decide))
theorem weight2_at12 : V12 m ρ c main_arg11 = a11 m c :=
  (Cert.KernelIdeal.Carry.at12 m ρ c main_arg11 (by decide)).trans (Cert.KernelIdeal.Carry.args_at4 m ρ c main_arg11 (by decide))

/-- The first bias as the head's launch finds it, one row of 256, reads at (0, k) the argument at k. -/
theorem bias1_at12 (k : Fin 256) : fat S1x256 (V12 m ρ c main_v120) (ix2 (0 : Fin 1) k) = a10 m c (ix1 k) := by
  show StableHlo.after hostOps4 (W11 m ρ c) (Proc.devRef .tc main_v120) _ = _
  after_results_simp
  refine (shapeCast_a_1a_apply _ shapeCasts_S256_S1x256 0 k).trans ?_
  rw [(Cert.KernelIdeal.Carry.at11 m ρ c main_arg10 (by decide)).trans (Cert.KernelIdeal.Carry.args_at4 m ρ c main_arg10 (by decide))]

/-- The second bias as the head's launch finds it, one row of 2, reads at (0, j) the argument at j. -/
theorem bias2_at12 (j : Fin 2) : fat S1x2 (V12 m ρ c main_v121) (ix2 (0 : Fin 1) j) = a12 m c (ix1 j) := by
  show StableHlo.after hostOps4 (W11 m ρ c) (Proc.devRef .tc main_v121) _ = _
  after_results_simp
  refine (shapeCast_a_1a_apply _ shapeCasts_S2_S1x2 0 j).trans ?_
  rw [(Cert.KernelIdeal.Carry.at11 m ρ c main_arg12 (by decide)).trans (Cert.KernelIdeal.Carry.args_at4 m ρ c main_arg12 (by decide))]

/-! The reference's composed index functions at coordinates. -/

theorem lidx_v127 (g : Fin 50) (k l : Fin 256) : lidx_main_v127 (ix2 g k) l = ix2 g l :=
  funext fun a => match a with
    | ⟨0, _⟩ => rfl
    | ⟨1, _⟩ => rfl
theorem ridx_v127 (g : Fin 50) (k l : Fin 256) : ridx_main_v127 (ix2 g k) l = ix2 l k :=
  funext fun a => match a with
    | ⟨0, _⟩ => rfl
    | ⟨1, _⟩ => rfl
theorem lidx_v132 (g : Fin 50) (j : Fin 2) (k : Fin 256) : lidx_main_v132 (ix2 g j) k = ix2 g k :=
  funext fun a => match a with
    | ⟨0, _⟩ => rfl
    | ⟨1, _⟩ => rfl
theorem ridx_v132 (g : Fin 50) (j : Fin 2) (k : Fin 256) : ridx_main_v132 (ix2 g j) k = ix2 k j :=
  funext fun a => match a with
    | ⟨0, _⟩ => rfl
    | ⟨1, _⟩ => rfl
theorem idx_bias1 (g : Fin 50) (k : Fin 256) : idx_main_v128 (idx_main_v129 (ix2 g k)) = ix1 k :=
  funext fun a => match a with
    | ⟨0, _⟩ => rfl
theorem idx_bias2 (g : Fin 50) (j : Fin 2) : idx_main_v133 (idx_main_v134 (ix2 g j)) = ix1 j :=
  funext fun a => match a with
    | ⟨0, _⟩ => rfl

/-- The head's output array is the reference's result. -/
theorem stage4b (h : W12 m ρ c (Proc.devRef .tc main_v119) = val_main_v126 (F := Ideal) (a0 m c) (a1 m c) (a2 m c) (a3 m c) (a4 m c) (a5 m c) (a6 m c) (a7 m c) (a8 m c)) :
    W13 m ρ c (Proc.devRef .tc main_v122) = val_main_v135 (F := Ideal) (a0 m c) (a1 m c) (a2 m c) (a3 m c) (a4 m c) (a5 m c) (a6 m c) (a7 m c) (a8 m c) (a9 m c) (a10 m c) (a11 m c) (a12 m c) := by
  refine (W13_arr m ρ c 5).trans ?_
  have hp : V12 m ρ c main_v119 = val_main_v126 (F := Ideal) (a0 m c) (a1 m c) (a2 m c) (a3 m c) (a4 m c) (a5 m c) (a6 m c) (a7 m c) (a8 m c) := h
  funext i
  obtain ⟨g, j, rfl⟩ : ∃ (g : Fin 50) (j : Fin 2), i = ix2 g j := ⟨i 0, i 1, eq_ix2 i⟩
  refine (Cert.KernelIdeal.Regions.arr4 (V12 m ρ) c g j).trans ?_
  rw [val_main_v135_apply, Ideal.addf_def, val_main_v132_apply, val_main_v134_apply, val_main_v133_apply, idx_bias2,
    bias2_at12, hp, weight1_at12, weight2_at12]
  refine congrArg₂ (fun a b : EReal => a + b) (Finset.sum_congr rfl fun k _ => ?_) rfl
  rw [lidx_v132, ridx_v132, val_main_v131_apply, Ideal.maximumf_def, val_main_v130_apply, Ideal.addf_def,
    val_main_v127_apply, val_main_v129_apply, val_main_v128_apply, idx_bias1, val_main_call5_v0_apply,
    val_main_call5_cst_apply, bias1_at12]
  refine congrArg₂ (fun a b : EReal => a * b) ?_ rfl
  refine congrArg₂ (fun a b : EReal => max a b) ?_ Ideal.ofBits_zero_f32.symm
  refine congrArg₂ (fun a b : EReal => a + b) (Finset.sum_congr rfl fun l _ => ?_) rfl
  rw [lidx_v127, ridx_v127]

end Cert.Bridge

end
-- ==== Proof.lean ====
/-
  The claim: the Pallas kernel's program, its idealization and the jnp reference compute, at the exact instance, one and
  the same function of the thirteen arguments — three hypergraph convolutions, a per-graph mean and a two-layer head.

  Both programs count the degrees of the nodes and of the hyperedges, and both aggregate a node table over the
  incidence list by the same gathers and scatter-adds. They differ in five places, where the kernel's program launches
  a Pallas kernel and the reference applies jnp operations to whole arrays:
    * `x @ W0`, and `relu(raw * dinv + b) @ W` twice: the kernel works on blocks of 2000 rows; each row of a matrix
      product depends only on the same row of the left factor, so the blocks' products are the product's blocks;
    * the per-graph sums: the kernel multiplies, block of rows by block of rows, a one-hot matrix (is node `n` in graph
      `g`?) with the activations and accumulates the products, where the reference scatter-adds each node's row onto
      its graph's row; a sum of terms weighted by zero or one is the sum of the terms weighted by one, and a sum over all
      nodes taken in blocks is the sum over all nodes;
    * the head `relu(p @ M1 + bM1) @ M2 + bM2` on one block.
  The kernel stores some intermediate tables in a narrower float format; at the exact instance a change of format is
  the identity. No step divides or cancels, so the inputs' finiteness is never used.

  The frames of the two kernel programs are the generated ones; the reference's frame is its run with the result
  dropped. The value of the kernel's program is read off its frame's run boundary by boundary (the modules under
  Proof/), each boundary buffer being a stage of the reference applied to the arguments.
-/
import proofs.«105314_j12644383719477_2_alg».proof.Defs
import proofs.«105314_j12644383719477_2_alg».proof.Proof.Gen.Kernel
import proofs.«105314_j12644383719477_2_alg».proof.Proof.Gen.Kernel.Skeleton
import proofs.«105314_j12644383719477_2_alg».proof.Proof.Gen.Kernel.Launch
import proofs.«105314_j12644383719477_2_alg».proof.Proof.Gen.Kernel.Points
import proofs.«105314_j12644383719477_2_alg».proof.Proof.Gen.Kernel.Frame
import proofs.«105314_j12644383719477_2_alg».proof.Proof.Gen.KernelIdeal
import proofs.«105314_j12644383719477_2_alg».proof.Proof.Gen.KernelIdeal.Skeleton
import proofs.«105314_j12644383719477_2_alg».proof.Proof.Gen.KernelIdeal.Launch
import proofs.«105314_j12644383719477_2_alg».proof.Proof.Gen.KernelIdeal.Points
import proofs.«105314_j12644383719477_2_alg».proof.Proof.Gen.KernelIdeal.Frame
import proofs.«105314_j12644383719477_2_alg».proof.Proof.Gen.ReferenceIdeal
import proofs.«105314_j12644383719477_2_alg».proof.Proof.Gen.Pre_finite_inputs
import proofs.«105314_j12644383719477_2_alg».proof.Proof.KernelRun
import proofs.«105314_j12644383719477_2_alg».proof.Proof.RefRun
import proofs.«105314_j12644383719477_2_alg».proof.Proof.RefRead
import proofs.«105314_j12644383719477_2_alg».proof.Proof.Args
import proofs.«105314_j12644383719477_2_alg».proof.Proof.Degrees
import proofs.«105314_j12644383719477_2_alg».proof.Proof.Aggregates
import proofs.«105314_j12644383719477_2_alg».proof.Proof.Stage0
import proofs.«105314_j12644383719477_2_alg».proof.Proof.Stage1
import proofs.«105314_j12644383719477_2_alg».proof.Proof.Stage2
import proofs.«105314_j12644383719477_2_alg».proof.Proof.Stage3
import proofs.«105314_j12644383719477_2_alg».proof.Proof.Stage4
import Idealize.ShloMosaic.Adequacy
import Idealize.ShloMosaic.Init

set_option maxRecDepth 16384

noncomputable section

namespace Cert.Proof

open Idealize.ShloMosaic Idealize.ShloMosaic.TcCoe Idealize.SL.Sem

/-- The kernel's program as printed: the generated frame. -/
theorem frame_kernel : Cert.frame_Kernel (hKernel := Cert.Kernel.Gen.facts) (hPre_finite_inputs := Cert.Pre_finite_inputs.Gen.facts) :=
  fun m ρ _ => Cert.Kernel.Gen.frame m ρ

/-- Its idealization: the generated frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

section Value

open Cert.KernelIdeal Cert.KernelIdeal.Gen Cert.Bridge Cert.ReferenceIdeal.ReadP

variable (m : (ℓ : Loc nD τ sig) → Buf (Elt Ideal) ℓ) (ρ : Dev nD → PrngReg) (c : Dev nD)

/-- The kernel's result buffer at the end of its program is the reference's last stage of the arguments: the chain of
    the boundary buffers, each a stage of the reference given the one before. -/
theorem result_eq : W13 m ρ c (Proc.devRef .tc main_v122) = val_main_v135 (F := Ideal) (a0 m c) (a1 m c) (a2 m c) (a3 m c) (a4 m c) (a5 m c) (a6 m c) (a7 m c) (a8 m c) (a9 m c) (a10 m c) (a11 m c) (a12 m c) :=
  stage4b m ρ c <| stage4a m ρ c <|
    stage3b m ρ c (dinv_eq m ρ c) <| stage3a m ρ c (rows_eq m ρ c) (cols_eq m ρ c) (binv_eq m ρ c) <|
    stage2b m ρ c (dinv_eq m ρ c) <| stage2a m ρ c (rows_eq m ρ c) (cols_eq m ρ c) (binv_eq m ρ c) <|
    stage1b m ρ c (dinv_eq m ρ c) <| stage1a m ρ c (rows_eq m ρ c) (cols_eq m ρ c) (binv_eq m ρ c) <|
    stage0 m ρ c

end Value

/-- From memories that agree on the arguments both idealized programs end with the same result: the kernel's at its
    last boundary's contents, which is the reference's composed term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W13 m ρ c (Proc.devRef .tc Cert.KernelIdeal.main_v122),
    Cert.KernelIdeal.Result.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12⟩ := hagree c
  refine (Cert.ReferenceIdeal.ReadP.val_main_v135_eq m' c).trans ?_
  rw [e0, e1, e2, e3, e4, e5, e6, e7, e8, e9, e10, e11, e12]
  exact (result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
